-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S64 .f32) (main_arg9 : FVec F S64x16 .f32) (main_arg10 : FVec F S16 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x16 .f32 := Host.absf main_arg9
  let main_cst_14 : FVec F S_ .f32 := constant S_ .f32 0x7F800000#32
  let main_v40 : FVec F S64x16 .f32 := broadcastInDim S64x16 ![] bcast_S_S64x16 main_cst_14
  let main_v41 : IVec S64x16 1 := cmpf .olt main_v39 main_v40
  let main_c_15 : IVec S_ 1 := constantI S_ 1 1#1
  let main_v42 : IVec S_ 1 := (fun x v => Host.reduce IntOp.andi x v reducesTo_S64x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x64 .f32) (main_arg8 : FVec F S64 .f32) (main_arg9 : FVec F S64x16 .f32) (main_arg10 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S2x800000 32) (main_arg2 : FVec F S800000 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x16 .f32) (main_arg10 : FVec F S16 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x64 : Shape := ⟨2, ![5000, 64]⟩
abbrev S850000x64 : Shape := ⟨2, ![850000, 64]⟩
abbrev S1x64 : Shape := ⟨2, ![1, 64]⟩
abbrev S1x16 : Shape := ⟨2, ![1, 16]⟩
abbrev S50000x16 : Shape := ⟨2, ![50000, 16]⟩
abbrev S5000x16 : Shape := ⟨2, ![5000, 16]⟩

abbrev nBuf : Space → Nat
  | .hbm => 93
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x16, .f32⟩
  | .hbm, ⟨10, _⟩ => ⟨S16, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S50000, .i32⟩
  | .hbm, ⟨16, _⟩ => ⟨S850000, .i32⟩
  | .hbm, ⟨17, _⟩ => ⟨S850000, .i32⟩
  | .hbm, ⟨18, _⟩ => ⟨S_, .f32⟩
  | .hbm, ⟨19, _⟩ => ⟨S50000, .f32⟩
  | .hbm, ⟨20, _⟩ => ⟨S850000, .f32⟩
  | .hbm, ⟨21, _⟩ => ⟨S_, .f32⟩
  | .hbm, ⟨22, _⟩ => ⟨S50000, .f32⟩
  | .hbm, ⟨23, _⟩ => ⟨S850000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S50000x64, .f32⟩
  | .hbm, ⟨54, _⟩ => ⟨S850000x1, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x64, .f32⟩
  | .hbm, ⟨64, _⟩ => ⟨S850000x64, .f32⟩
  | .hbm, ⟨65, _⟩ => ⟨S850000x64, .f32⟩
  | .hbm, ⟨66, _⟩ => ⟨S_, .f32⟩
  | .hbm, ⟨67, _⟩ => ⟨S50000x64, .f32⟩
  | .hbm, ⟨68, _⟩ => ⟨S850000x1, .i32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S850000x1, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x64, .f32⟩
  | .hbm, ⟨82, _⟩ => ⟨S850000x64, .f32⟩
  | .hbm, ⟨83, _⟩ => ⟨S850000x64, .f32⟩
  | .hbm, ⟨84, _⟩ => ⟨S_, .f32⟩
  | .hbm, ⟨85, _⟩ => ⟨S50000x64, .f32⟩
  | .hbm, ⟨86, _⟩ => ⟨S850000x1, .i32⟩
  | .hbm, ⟨87, _⟩ => ⟨S50000x64, .f32⟩
  | .hbm, ⟨88, _⟩ => ⟨S1x64, .f32⟩
  | .hbm, ⟨89, _⟩ => ⟨S1x64, .f32⟩
  | .hbm, ⟨90, _⟩ => ⟨S50000x64, .f32⟩
  | .hbm, ⟨91, _⟩ => ⟨S1x16, .f32⟩
  | .hbm, ⟨92, _⟩ => ⟨S50000x16, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x16, .f32⟩
  | .local _ .vmem, ⟨21, _⟩ => ⟨S1x16, .f32⟩
  | .local _ .vmem, ⟨22, _⟩ => ⟨S5000x16, .f32⟩
  | .local _ .vmem, ⟨23, _⟩ => ⟨S5000x16, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x16.size a ≤ S64x16.size a
  hwx3_1 : ∀ i : grid3.Coords, EltTy.bits .f32 = 32 ∨ (Rect.block (s := S64x16) S64x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x16.size a ≤ S50000x16.size a
  hwx3_3 : ∀ i : grid3.Coords, EltTy.bits .f32 = 32 ∨ (Rect.block (s := S50000x16) S5000x16.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v63) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S64x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S5000x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x16 : Shape := ⟨2, ![50000, 16]⟩
abbrev S1x16 : Shape := ⟨2, ![1, 16]⟩

abbrev nBuf : Space → Nat
  | .hbm => 156
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x16, .f32⟩
  | 10 => ⟨S16, .f32⟩
  | 11 => ⟨S1x800000, .i32⟩
  | 12 => ⟨S800000, .i32⟩
  | 13 => ⟨S1x800000, .i32⟩
  | 14 => ⟨S800000, .i32⟩
  | 15 => ⟨S50000x64, .f32⟩
  | 16 => ⟨S50000, .i32⟩
  | 17 => ⟨S850000, .i32⟩
  | 18 => ⟨S850000, .i32⟩
  | 19 => ⟨S_, .f32⟩
  | 20 => ⟨S50000, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S850000x1, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x64, .f32⟩
  | 64 => ⟨S850000x64, .f32⟩
  | 65 => ⟨S850000x64, .f32⟩
  | 66 => ⟨S_, .f32⟩
  | 67 => ⟨S50000x64, .f32⟩
  | 68 => ⟨S850000x1, .i32⟩
  | 69 => ⟨S50000x64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S50000x64, .f32⟩
  | 77 => ⟨S50000, .i32⟩
  | 78 => ⟨S850000, .i32⟩
  | 79 => ⟨S850000, .i32⟩
  | 80 => ⟨S_, .f32⟩
  | 81 => ⟨S50000, .f32⟩
  | 82 => ⟨S850000, .f32⟩
  | 83 => ⟨S_, .f32⟩
  | 84 => ⟨S50000, .f32⟩
  | 85 => ⟨S850000x1, .i32⟩
  | 86 => ⟨S50000, .f32⟩
  | 87 => ⟨S_, .f32⟩
  | 88 => ⟨S50000, .f32⟩
  | 89 => ⟨S50000, .i1⟩
  | 90 => ⟨S50000, .f32⟩
  | 91 => ⟨S_, .f32⟩
  | 92 => ⟨S_, .f32⟩
  | 93 => ⟨S50000, .f32⟩
  | 94 => ⟨S50000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S850000, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000, .f32⟩
  | 114 => ⟨S850000, .f32⟩
  | 115 => ⟨S850000x1, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000x64, .f32⟩
  | 125 => ⟨S850000x64, .f32⟩
  | 126 => ⟨S850000x64, .f32⟩
  | 127 => ⟨S_, .f32⟩
  | _ => ⟨S50000x64, .f32⟩

abbrev hbmTy0_1 (i : Nat) : BufTy := match i % 128 with
  | 0 => ⟨S50000x64, .f32⟩
  | 1 => ⟨S850000x1, .i32⟩
  | 2 => ⟨S50000x64, .f32⟩
  | 3 => ⟨S1x64, .f32⟩
  | 4 => ⟨S50000x64, .f32⟩
  | 5 => ⟨S50000x64, .f32⟩
  | 6 => ⟨S_, .f32⟩
  | 7 => ⟨S50000x64, .f32⟩
  | 8 => ⟨S50000x64, .f32⟩
  | 9 => ⟨S50000x64, .f32⟩
  | 10 => ⟨S1x64, .f32⟩
  | 11 => ⟨S50000x64, .f32⟩
  | 12 => ⟨S50000x64, .f32⟩
  | 13 => ⟨S_, .f32⟩
  | 14 => ⟨S50000x64, .f32⟩
  | 15 => ⟨S50000x64, .f32⟩
  | 16 => ⟨S50000x16, .f32⟩
  | 17 => ⟨S1x16, .f32⟩
  | 18 => ⟨S50000x16, .f32⟩
  | 19 => ⟨S50000x16, .f32⟩
  | 20 => ⟨S50000x16, .f32⟩
  | 21 => ⟨S50000x16, .f32⟩
  | 22 => ⟨S_, .f32⟩
  | 23 => ⟨S50000x16, .f32⟩
  | 24 => ⟨S50000x16, .f32⟩
  | 25 => ⟨S_, .f32⟩
  | 26 => ⟨S50000x16, .f32⟩
  | 27 => ⟨S50000x16, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_9 : Ref sig .tc := ⟨.hbm, 80, rfl⟩
abbrev main_v54 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_v62 : Ref sig .tc := ⟨.hbm, 94, rfl⟩
abbrev main_c_13 : Ref sig .tc := ⟨.hbm, 95, rfl⟩
abbrev main_v63 : Ref sig .tc := ⟨.hbm, 96, rfl⟩
abbrev main_v64 : Ref sig .tc := ⟨.hbm, 97, rfl⟩
abbrev main_c_14 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_15 : Ref sig .tc := ⟨.hbm, 105, rfl⟩
abbrev main_v71 : Ref sig .tc := ⟨.hbm, 106, rfl⟩
abbrev main_v72 : Ref sig .tc := ⟨.hbm, 107, rfl⟩
abbrev main_c_16 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_c_17 : Ref sig .tc := ⟨.hbm, 116, rfl⟩
abbrev main_v80 : Ref sig .tc := ⟨.hbm, 117, rfl⟩
abbrev main_v81 : Ref sig .tc := ⟨.hbm, 118, rfl⟩
abbrev main_c_18 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_19 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_call3_cst : Ref sig .tc := ⟨.hbm, 134, rfl⟩
abbrev main_call3_v0 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_call4_cst : Ref sig .tc := ⟨.hbm, 141, rfl⟩
abbrev main_call4_v0 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_20 : Ref sig .tc := ⟨.hbm, 150, rfl⟩
abbrev main_v107 : Ref sig .tc := ⟨.hbm, 151, rfl⟩
abbrev main_v108 : Ref sig .tc := ⟨.hbm, 152, rfl⟩
abbrev main_cst_21 : Ref sig .tc := ⟨.hbm, 153, rfl⟩
abbrev main_v109 : Ref sig .tc := ⟨.hbm, 154, rfl⟩
abbrev main_v110 : Ref sig .tc := ⟨.hbm, 155, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x16 : S_.BroadcastsInDim S50000x16 (![] : Fin 0 → Fin S50000x16.rank)
  dot_S50000x64_S64x64_S50000x64_1_0_0_1_n_n_wf : DotDims.WF S50000x64 S64x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x16_S50000x16_1_0_0_1_n_n_wf : DotDims.WF S50000x64 S64x16 S50000x16 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf

class Facts : Prop extends Facts₀ where

variable [Facts]
-- ==== Proof.Spec.lean ====
/-
  The mathematics of the four dense stages of a two-layer graph convolution with a two-layer head, each as ONE
  function of whole arrays read index by index on the extended reals. Rows are the 50000 nodes, the contracted
  axis has 64 entries, a bias is a row of shape [1, n].

    lin          X W        (r, c) = Σ_k X(r,k) · W(k,c)
    reluLin      A b W      (r, c) = Σ_k max(A(r,k) + b(0,k), 0) · W(k,c)
    reluLinRelu  A b W b'   (r, c) = max(reluLin A b W (r,c) + b'(0,c), 0)
    linSigmoid   H W b      (r, c) = 1 / (1 + exp(-(Σ_k H(r,k) · W(k,c) + b(0,c))))

  No program is imported here: both programs' stages are shown to be these functions elsewhere.
-/
import Idealize.ShloMosaic.PureOps.Ideal
import Idealize.ShloMosaic.Lib.ValueIdx

noncomputable section

namespace Cert.Gcn

open Idealize.ShloMosaic Idealize.ShloMosaic.ValueIdx

/-- Node features, [50000, 64]. -/
abbrev NodeFeat : Shape := ⟨2, ![50000, 64]⟩
/-- Node outputs, [50000, 16]. -/
abbrev NodeOut : Shape := ⟨2, ![50000, 16]⟩
/-- A square weight, [64, 64]. -/
abbrev Sq : Shape := ⟨2, ![64, 64]⟩
/-- The head's weight, [64, 16]. -/
abbrev Head : Shape := ⟨2, ![64, 16]⟩
/-- A bias row, [1, 64]. -/
abbrev Row64 : Shape := ⟨2, ![1, 64]⟩
/-- A bias row, [1, 16]. -/
abbrev Row16 : Shape := ⟨2, ![1, 16]⟩

/-- The linear map: `(X · W)(r, c) = Σ_k X(r,k) · W(k,c)`. -/
def lin (X : NodeFeat.Idx → EReal) (W : Sq.Idx → EReal) : NodeFeat.Idx → EReal :=
  fun i => ∑ k : Fin 64, X (ix2 (i 0) k) * W (ix2 k (i 1))

/-- Bias, rectifier, then the linear map: `(max(A + b, 0) · W)(r, c)`. -/
def reluLin (A : NodeFeat.Idx → EReal) (b : Row64.Idx → EReal) (W : Sq.Idx → EReal) : NodeFeat.Idx → EReal :=
  fun i => ∑ k : Fin 64, max (A (ix2 (i 0) k) + b (ix2 (0 : Fin 1) k)) 0 * W (ix2 k (i 1))

/-- The same followed by a second bias and rectifier: `max(max(A + b, 0) · W + b', 0)`. -/
def reluLinRelu (A : NodeFeat.Idx → EReal) (b : Row64.Idx → EReal) (W : Sq.Idx → EReal) (b' : Row64.Idx → EReal) :
    NodeFeat.Idx → EReal :=
  fun i => max (reluLin A b W i + b' (ix2 (0 : Fin 1) (i 1))) 0

/-- The head: the linear map to 16 classes, a bias, and the logistic function `1 / (1 + exp(-z))`. -/
def linSigmoid (H : NodeFeat.Idx → EReal) (W : Head.Idx → EReal) (b : Row16.Idx → EReal) : NodeOut.Idx → EReal :=
  fun i => Ideal.logistic ((∑ k : Fin 64, H (ix2 (i 0) k) * W (ix2 k (i 1))) + b (ix2 (0 : Fin 1) (i 1)))

end Cert.Gcn

end
-- ==== Proof.Region0.lean ====
/-
  Region 0 of the kernel program: the first linear map, h = x · W1.

  The region runs a grid of ten points. Point t stages rows 5000·t … 5000·t + 4999 of the node-feature array x
  (a block [5000, 64]), the whole weight W1 (one block [64, 64], the same at every point), computes on the blocks
  the product  (block of x) · W1  — a matrix product into a zero accumulator, which on the extended reals is the
  plain sum over the 64 contracted entries, the narrowing of its operands being the identity there — and writes the
  result back as rows 5000·t … 5000·t + 4999 of the output array. An entry (r, c) of the output therefore depends
  only on row r of x and column c of W1:  Σ_k x(r,k) · W1(k,c). The ten blocks tile the 50000 rows, so the array
  the region leaves is that function at every index: `Cert.Gcn.lin`.
-/
import proofs.«167458_j18124761989811_1_alg».proof.Proof.Gen.KernelIdeal.Frame
import proofs.«167458_j18124761989811_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## A [5000, 64] × [64, 64] block product read at an entry -/

/-- The two-axis zero offset, however it is spelt. -/
theorem zeroOff2 : (![0, 0] : Fin 2 → Nat) = fun _ => 0 := funext fun a => by fin_cases a <;> rfl

theorem blockDot_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem blockDot_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem blockDot_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem blockDot_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block product into a zero accumulator, at entry (r, c): the sum over the 64 contracted entries of
    (left operand at (r, k)) · (right operand at (k, c)). -/
theorem blockDot_apply {φ₁ φ₂ : FTy} (l : FVec Ideal S5000x64 φ₁) (r : FVec Ideal S64x64 φ₂) (i : S5000x64.Idx) :
    matmul dot_S5000x64_S64x64_S5000x64_1_0_0_1_n_n none l r (constant (F := Ideal) S5000x64 .f32 0x00000000#32) i
      = ∑ k : Fin 64, l (ix2 (i 0) k) * r (ix2 k (i 1)) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx i ((contrEquiv1 dot_S5000x64_S64x64_S5000x64_1_0_0_1_n_n 64 rfl rfl).symm k) = ix2 (i 0) k := funext fun a => Fin.ext (by
    match a with
    | ⟨0, _⟩ => exact blockDot_lhs_0 _ _
    | ⟨1, _⟩ => exact (blockDot_lhs_1 _ _).trans hk)
  have er : dot_S5000x64_S64x64_S5000x64_1_0_0_1_n_n.rhsIdx i ((contrEquiv1 dot_S5000x64_S64x64_S5000x64_1_0_0_1_n_n 64 rfl rfl).symm k) = ix2 k (i 1) := funext fun a => Fin.ext (by
    match a with
    | ⟨0, _⟩ => exact (blockDot_rhs_0 _ _).trans hk
    | ⟨1, _⟩ => exact blockDot_rhs_1 _ _)
  rw [el, er]
  rfl

/-! ## Region 0 -/

/-- What the body stores, at entry (r, c) of the block: Σ_k (x's block)(r,k) · (W1's block)(k,c). -/
theorem pay0_apply (v0 : Vec Ideal S5000x64 .f32) (v2 : Vec Ideal S64x64 .f32) (i : S5000x64.Idx) :
    k0_pay1 v0 v2 i = ∑ k : Fin 64, v0 (ix2 (i 0) k) * v2 (ix2 k (i 1)) := by
  unfold k0_pay1
  exact blockDot_apply (truncf .bf16 v0 bitsLt_bf16_f32) (truncf .bf16 v2 bitsLt_bf16_f32) i

/-- The index maps over the ten points: x's block and the output's block sit at the same row block, in column
    block 0; W1's block is block (0, 0); the row block is the point's number. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

variable (V : (c : Dev nD) → (b : Ref sig .tc) → Buf (Elt Ideal) ((c : Thread nD τ).loc b))

/-- What point t writes back is block t of the whole-array function x · W1. -/
theorem flushed0_eq (c : Dev nD) (t : Fin cfg0.N) :
    (dat0 (F := Ideal) V c).flushed 2 t
      = ((cfg0.win 2).blk t).view.read (Elt Ideal) (Cert.Gcn.lin (V c main_arg0) (V c main_arg3)) := by
  show (cfg0.win 2).cut (grid0.coords t) ((dat0 V c).after 2 t) = _
  rw [after0_2]
  unfold out0_2
  rw [View.canon_unit_zero zeroOff2]
  simp only [View.ld_unit_zero (S := S5000x64) zeroOff2, View.ld_unit_zero (S := S64x64) zeroOff2]
  obtain ⟨e0, e1, e2, e3, e4, e5⟩ := idx_facts0 t
  funext y
  show k0_pay1 (iblk0 V c 0 t) (iblk0 V c 1 t) y
      = Cert.Gcn.lin (V c main_arg0) (V c main_arg3) (((cfg0.win 2).blk t).view.emb y)
  refine (pay0_apply (iblk0 V c 0 t) (iblk0 V c 1 t) y).trans ?_
  unfold Cert.Gcn.lin
  refine Finset.sum_congr rfl fun k _ => ?_
  have h0 : ((cfg0.win 0).blk t).view.emb (ix2 (y 0) k) = ix2 ((((cfg0.win 2).blk t).view.emb y) 0) k := by
    funext a; apply Fin.ext
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 64 + 1 * k.val = k.val; omega
  have h1 : ((cfg0.win 1).blk t).view.emb (ix2 k (y 1)) = ix2 k ((((cfg0.win 2).blk t).view.emb y) 1) := by
    funext a; apply Fin.ext
    match a with
    | ⟨0, _⟩ => show win0_1.index t (0 : Fin 2) * 64 + 1 * k.val = k.val; omega
    | ⟨1, _⟩ => show win0_1.index t (1 : Fin 2) * 64 + 1 * (y 1).val = win0_2.index t (1 : Fin 2) * 64 + 1 * (y 1).val; omega
  refine congrArg₂ (· * ·) ?_ ?_
  · show V c main_arg0 (((cfg0.win 0).blk t).view.emb (ix2 (y 0) k)) = _
    rw [h0]; rfl
  · show V c main_arg3 (((cfg0.win 1).blk t).view.emb (ix2 k (y 1))) = _
    rw [h1]; rfl

/-- An index of the output array lies in point t's block iff each coordinate lies in the block's range. -/
theorem mem_blk0 (t : Fin cfg0.N) (i : S50000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v32).slice (win0_2.rect t)).set ↔ _
  rw [View.set_slice_whole, Rect.mem_set_unit]
  exact Iff.rfl

/-- The ten row blocks tile the 50000 rows: row r lies in the block of point r / 5000. -/
theorem cover0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hlt : (i 0).val / 5000 < grid0.N := by rw [N_0]; omega
  refine ⟨⟨(i 0).val / 5000, hlt⟩, flush0_2 _, ?_⟩
  rw [mem_blk0]
  obtain ⟨-, -, -, -, e4, e5⟩ := idx_facts0 ⟨(i 0).val / 5000, hlt⟩
  have e5' : win0_2.index ⟨(i 0).val / 5000, hlt⟩ (0 : Fin 2) = (i 0).val / 5000 := e5
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    rw [e5']; omega
  | ⟨1, _⟩ =>
    show win0_2.index ⟨(i 0).val / 5000, hlt⟩ (1 : Fin 2) * 64 ≤ (i 1).val
      ∧ (i 1).val < win0_2.index ⟨(i 0).val / 5000, hlt⟩ (1 : Fin 2) * 64 + 64
    rw [e4]; omega

/-- The array region 0 leaves: x · W1 of the arrays the region found, at every index. -/
theorem final0 (c : Dev nD) :
    (dat0 (F := Ideal) V c).arrAt 2 cfg0.N = Cert.Gcn.lin (V c main_arg0) (V c main_arg3) :=
  (dat0 (F := Ideal) V c).arrAt_eq_of_cover 2 _ (fun t _ => flushed0_eq V c t) cover0

end Cert.KernelIdeal.RegionValue

end
-- ==== Proof.Region1.lean ====
/-
  Region 1 of the kernel program: bias, rectifier and the second linear map,  max(A + b1, 0) · W2.

  The region runs a grid of ten points. Point t stages rows 5000·t … 5000·t + 4999 of the aggregated array A
  (a block [5000, 64]), the bias as one row [1, 64] and the whole weight W2 [64, 64] (each the same block at every
  point). On the blocks the body adds the row to every row of A's block, takes the maximum with 0, and multiplies
  by W2 into a zero accumulator — on the extended reals the plain sum over the 64 contracted entries, narrowing
  being the identity — and the result goes back as rows 5000·t … 5000·t + 4999 of the output. Entry (r, c) of the
  output is  Σ_k max(A(r,k) + b1(0,k), 0) · W2(k,c),  a function of row r of A only; the ten blocks tile the rows,
  so the array the region leaves is `Cert.Gcn.reluLin` at every index.
-/
import proofs.«167458_j18124761989811_1_alg».proof.Proof.Gen.KernelIdeal.Frame
import proofs.«167458_j18124761989811_1_alg».proof.Proof.Spec
import proofs.«167458_j18124761989811_1_alg».proof.Proof.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- What the body stores, at entry (r, c) of the block: Σ_k max(A's block (r,k) + bias row (0,k), 0) · W2(k,c). -/
theorem pay1_apply (v0 : Vec Ideal S5000x64 .f32) (v2 : Vec Ideal S1x64 .f32) (v9 : Vec Ideal S64x64 .f32)
    (i : S5000x64.Idx) :
    k1_pay1 v0 v2 v9 i = ∑ k : Fin 64, max (v0 (ix2 (i 0) k) + v2 (ix2 (0 : Fin 1) k)) 0 * v9 (ix2 k (i 1)) := by
  unfold k1_pay1
  refine (blockDot_apply _ _ i).trans ?_
  refine Finset.sum_congr rfl fun k _ => ?_
  refine congrArg₂ (· * ·) ?_ rfl
  show max ((shapeCast S5000x64 v0 shapeCasts_S5000x64_S5000x64) (ix2 (i 0) k)
      + (broadcastTo S5000x64 (shapeCast S1x64 v2 shapeCasts_S1x64_S1x64) broadcasts_S1x64_S5000x64) (ix2 (i 0) k))
      (Ideal.ofBits .f32 0x00000000#32) = _
  rw [shapeCast_self, shapeCast_self]
  exact congrArg₂ max
    (congrArg (v0 (ix2 (i 0) k) + ·) (broadcastTo_1b_ab_apply (a := 5000) (b := 64) v2 broadcasts_S1x64_S5000x64 (i 0) k))
    Ideal.ofBits_zero_f32

/-- The index maps over the ten points: A's block and the output's block sit at the same row block, in column
    block 0; the bias row and W2 are block (0, 0); the row block is the point's number. -/
theorem idx_facts1 : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) = t.val :=
  (by decide +kernel : ∀ t : Fin grid1.N, _)

variable (V : (c : Dev nD) → (b : Ref sig .tc) → Buf (Elt Ideal) ((c : Thread nD τ).loc b))

/-- What point t writes back is block t of the whole-array function max(A + b1, 0) · W2. -/
theorem flushed1_eq (c : Dev nD) (t : Fin cfg1.N) :
    (dat1 (F := Ideal) V c).flushed 3 t
      = ((cfg1.win 3).blk t).view.read (Elt Ideal) (Cert.Gcn.reluLin (V c main_v45) (V c main_v46) (V c main_arg5)) := by
  show (cfg1.win 3).cut (grid1.coords t) ((dat1 V c).after 3 t) = _
  rw [after1_3]
  unfold out1_3
  rw [View.canon_unit_zero zeroOff2]
  simp only [View.ld_unit_zero (S := S5000x64) zeroOff2, View.ld_unit_zero (S := S1x64) zeroOff2,
    View.ld_unit_zero (S := S64x64) zeroOff2]
  obtain ⟨e0, e1, e2, e3, e4, e5, e6, e7⟩ := idx_facts1 t
  funext y
  show k1_pay1 (iblk1 V c 0 t) (iblk1 V c 1 t) (iblk1 V c 2 t) y
      = Cert.Gcn.reluLin (V c main_v45) (V c main_v46) (V c main_arg5) (((cfg1.win 3).blk t).view.emb y)
  refine (pay1_apply (iblk1 V c 0 t) (iblk1 V c 1 t) (iblk1 V c 2 t) y).trans ?_
  unfold Cert.Gcn.reluLin
  refine Finset.sum_congr rfl fun k _ => ?_
  have h0 : ((cfg1.win 0).blk t).view.emb (ix2 (y 0) k) = ix2 ((((cfg1.win 3).blk t).view.emb y) 0) k := by
    funext a; apply Fin.ext
    match a with
    | ⟨0, _⟩ => show win1_0.index t (0 : Fin 2) * 5000 + 1 * (y 0).val = win1_3.index t (0 : Fin 2) * 5000 + 1 * (y 0).val; omega
    | ⟨1, _⟩ => show win1_0.index t (1 : Fin 2) * 64 + 1 * k.val = k.val; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 64 + 1 * k.val = k.val; omega
  have h2 : ((cfg1.win 2).blk t).view.emb (ix2 k (y 1)) = ix2 k ((((cfg1.win 3).blk t).view.emb y) 1) := by
    funext a; apply Fin.ext
    match a with
    | ⟨0, _⟩ => show win1_2.index t (0 : Fin 2) * 64 + 1 * k.val = k.val; omega
    | ⟨1, _⟩ => show win1_2.index t (1 : Fin 2) * 64 + 1 * (y 1).val = win1_3.index t (1 : Fin 2) * 64 + 1 * (y 1).val; omega
  refine congrArg₂ (· * ·) (congrArg₂ max (congrArg₂ (· + ·) ?_ ?_) rfl) ?_
  · show V c main_v45 (((cfg1.win 0).blk t).view.emb (ix2 (y 0) k)) = _
    rw [h0]; rfl
  · show V c main_v46 (((cfg1.win 1).blk t).view.emb (ix2 (0 : Fin 1) k)) = _
    rw [h1]
  · show V c main_arg5 (((cfg1.win 2).blk t).view.emb (ix2 k (y 1))) = _
    rw [h2]; rfl

/-- An index of the output array lies in point t's block iff each coordinate lies in the block's range. -/
theorem mem_blk1 (t : Fin cfg1.N) (i : S50000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v47).slice (win1_3.rect t)).set ↔ _
  rw [View.set_slice_whole, Rect.mem_set_unit]
  exact Iff.rfl

/-- The ten row blocks tile the 50000 rows: row r lies in the block of point r / 5000. -/
theorem cover1 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hlt : (i 0).val / 5000 < grid1.N := by rw [N_1]; omega
  refine ⟨⟨(i 0).val / 5000, hlt⟩, flush1_3 _, ?_⟩
  rw [mem_blk1]
  obtain ⟨-, -, -, -, -, -, e6, e7⟩ := idx_facts1 ⟨(i 0).val / 5000, hlt⟩
  have e7' : win1_3.index ⟨(i 0).val / 5000, hlt⟩ (0 : Fin 2) = (i 0).val / 5000 := e7
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    rw [e7']; omega
  | ⟨1, _⟩ =>
    show win1_3.index ⟨(i 0).val / 5000, hlt⟩ (1 : Fin 2) * 64 ≤ (i 1).val
      ∧ (i 1).val < win1_3.index ⟨(i 0).val / 5000, hlt⟩ (1 : Fin 2) * 64 + 64
    rw [e6]; omega

/-- The array region 1 leaves: max(A + b1, 0) · W2 of the arrays the region found, at every index. -/
theorem final1 (c : Dev nD) :
    (dat1 (F := Ideal) V c).arrAt 3 cfg1.N = Cert.Gcn.reluLin (V c main_v45) (V c main_v46) (V c main_arg5) :=
  (dat1 (F := Ideal) V c).arrAt_eq_of_cover 3 _ (fun t _ => flushed1_eq V c t) cover1

end Cert.KernelIdeal.RegionValue

end
-- ==== Proof.Region2.lean ====
/-
  Region 2 of the kernel program: the rectifier of the second aggregation fused with the first layer of the head,
  h3 = max(max(agg2 + b2, 0) · Wm1 + bm1, 0).

  The region runs a grid of ten points. Point t stages rows 5000·t … 5000·t + 4999 of the aggregated array agg2 (a
  block [5000, 64]), the whole bias row b2 ([1, 64]), the whole weight Wm1 ([64, 64]) and the whole bias row bm1
  ([1, 64]), the last three the same at every point. On the blocks it adds b2 to every row of agg2's block, takes
  the maximum with 0 entry by entry, multiplies by Wm1 — a matrix product into a zero accumulator, which on the
  extended reals is the plain sum over the 64 contracted entries, the narrowing of its operands being the identity
  there —, adds bm1 to every row, takes the maximum with 0 again, and writes the result back as rows
  5000·t … 5000·t + 4999 of the output array. An entry (r, c) of the output therefore depends only on row r of agg2,
  on b2, on column c of Wm1 and on entry c of bm1:
  max(Σ_k max(agg2(r,k) + b2(0,k), 0) · Wm1(k,c) + bm1(0,c), 0). The ten blocks tile the 50000 rows, so the array
  the region leaves is that function at every index: `Cert.Gcn.reluLinRelu`.
-/
import proofs.«167458_j18124761989811_1_alg».proof.Proof.Gen.KernelIdeal.Frame
import proofs.«167458_j18124761989811_1_alg».proof.Proof.Spec
import proofs.«167458_j18124761989811_1_alg».proof.Proof.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## Region 2 -/

/-- What the body stores, at entry (p, q) of the block: bias and rectifier on the input block's row p, its
    product with column q of the weight, the second bias at q, and the rectifier again. -/
theorem pay2_apply (v0 : Vec Ideal S5000x64 .f32) (v2 : Vec Ideal S1x64 .f32) (v9 : Vec Ideal S64x64 .f32)
    (v12 : Vec Ideal S1x64 .f32) (p : Fin 5000) (q : Fin 64) :
    k2_pay1 v0 v2 v9 v12 (ix2 p q)
      = max ((∑ k : Fin 64, max (v0 (ix2 p k) + v2 (ix2 (0 : Fin 1) k)) 0 * v9 (ix2 k q)) + v12 (ix2 (0 : Fin 1) q)) 0 := by
  unfold k2_pay1
  simp only [shapeCast_self]
  show max (matmul dot_S5000x64_S64x64_S5000x64_1_0_0_1_n_n none
        (truncf .bf16 (maximumf (addf v0 (broadcastTo S5000x64 v2 broadcasts_S1x64_S5000x64))
          (broadcast S5000x64 (Scalar.ofBits .f32 0x00000000#32))) bitsLt_bf16_f32)
        (truncf .bf16 v9 bitsLt_bf16_f32) (constant (F := Ideal) S5000x64 .f32 0x00000000#32) (ix2 p q)
      + broadcastTo S5000x64 v12 broadcasts_S1x64_S5000x64 (ix2 p q)) (Ideal.ofBits .f32 0x00000000#32) = _
  rw [blockDot_apply, broadcastTo_1b_ab_apply, Ideal.ofBits_zero_f32]
  refine congrArg (fun s => max (s + v12 (ix2 (0 : Fin 1) q)) 0) (Finset.sum_congr rfl fun k _ => ?_)
  show max (v0 (ix2 p k) + broadcastTo S5000x64 v2 broadcasts_S1x64_S5000x64 (ix2 p k)) (Ideal.ofBits .f32 0x00000000#32)
      * v9 (ix2 k q) = _
  rw [broadcastTo_1b_ab_apply, Ideal.ofBits_zero_f32]

/-- The block's payload at an entry, against a whole-array function: if the four loaded blocks read, at the
    entries the sum visits, what the arrays hold at row i 0 / column i 1, the stored entry is the stage at i. -/
theorem pay2_at (x0 : Vec Ideal S5000x64 .f32) (x1 : Vec Ideal S1x64 .f32) (x2 : Vec Ideal S64x64 .f32)
    (x3 : Vec Ideal S1x64 .f32)
    (A : S50000x64.Idx → EReal) (b : S1x64.Idx → EReal) (W : S64x64.Idx → EReal) (b' : S1x64.Idx → EReal)
    (y : S5000x64.Idx) (i : S50000x64.Idx)
    (h0 : ∀ k : Fin 64, x0 (ix2 (y 0) k) = A (ix2 (i 0) k))
    (h1 : ∀ k : Fin 64, x1 (ix2 (0 : Fin 1) k) = b (ix2 (0 : Fin 1) k))
    (h2 : ∀ k : Fin 64, x2 (ix2 k (y 1)) = W (ix2 k (i 1)))
    (h3 : x3 (ix2 (0 : Fin 1) (y 1)) = b' (ix2 (0 : Fin 1) (i 1))) :
    k2_pay1 x0 x1 x2 x3 y = Cert.Gcn.reluLinRelu A b W b' i := by
  obtain ⟨p, q, rfl⟩ : ∃ (p : Fin 5000) (q : Fin 64), y = ix2 p q := ⟨y 0, y 1, eq_ix2 y⟩
  rw [pay2_apply]
  unfold Cert.Gcn.reluLinRelu Cert.Gcn.reluLin
  rw [← h3]
  refine congrArg (fun s => max (s + x3 (ix2 (0 : Fin 1) q)) 0) (Finset.sum_congr rfl fun k _ => ?_)
  rw [← h0 k, ← h1 k, ← h2 k]

/-- The index maps over the ten points: the input's block and the output's block sit at the same row block, in column
    block 0; the two bias rows' and the weight's blocks are block (0, 0); the row block is the point's number. -/
theorem idx_facts2 : ∀ t : Fin cfg2.N, win2_0.index t (0 : Fin 2) = win2_4.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0 ∧ win2_4.index t (0 : Fin 2) = t.val :=
  (by decide +kernel : ∀ t : Fin grid2.N, _)

variable (V : (c : Dev nD) → (b : Ref sig .tc) → Buf (Elt Ideal) ((c : Thread nD τ).loc b))

/-- The input's block at point t, at (row of y, k), is the input array at (row of y's place in the output, k). -/
theorem read2_0 (c : Dev nD) (t : Fin cfg2.N) (y : ((cfg2.win 4).xblock (cfg2.grid.coords t)).Idx) (k : Fin 64) :
    iblk2 V c 0 t (ix2 (y 0) k) = V c main_v60 (ix2 ((((cfg2.win 4).blk t).view.emb y) 0) k) := by
  obtain ⟨e0, e1, -, -, -, -, -, -, -, -⟩ := idx_facts2 t
  have h0 : ((cfg2.win 0).blk t).view.emb (ix2 (y 0) k) = ix2 ((((cfg2.win 4).blk t).view.emb y) 0) k := by
    funext a; apply Fin.ext
    match a with
    | ⟨0, _⟩ => show win2_0.index t (0 : Fin 2) * 5000 + 1 * (y 0).val = win2_4.index t (0 : Fin 2) * 5000 + 1 * (y 0).val; omega
    | ⟨1, _⟩ => show win2_0.index t (1 : Fin 2) * 64 + 1 * k.val = k.val; omega
  show V c main_v60 (((cfg2.win 0).blk t).view.emb (ix2 (y 0) k)) = _
  rw [h0]; rfl

/-- The first bias row's block at any point is the bias row. -/
theorem read2_1 (c : Dev nD) (t : Fin cfg2.N) (k : Fin 64) :
    iblk2 V c 1 t (ix2 (0 : Fin 1) k) = V c main_v61 (ix2 (0 : Fin 1) k) := by
  obtain ⟨-, -, e2, e3, -, -, -, -, -, -⟩ := idx_facts2 t
  have h1 : ((cfg2.win 1).blk t).view.emb (ix2 (0 : Fin 1) k) = ix2 (0 : Fin 1) k := by
    funext a; apply Fin.ext
    match a with
    | ⟨0, _⟩ => show win2_1.index t (0 : Fin 2) * 1 + 1 * 0 = 0; omega
    | ⟨1, _⟩ => show win2_1.index t (1 : Fin 2) * 64 + 1 * k.val = k.val; omega
  show V c main_v61 (((cfg2.win 1).blk t).view.emb (ix2 (0 : Fin 1) k)) = V c main_v61 (ix2 (0 : Fin 1) k)
  exact congrArg (V c main_v61) h1

/-- The weight's block at any point, at (k, column of y), is the weight at (k, column of y's place in the output). -/
theorem read2_2 (c : Dev nD) (t : Fin cfg2.N) (y : ((cfg2.win 4).xblock (cfg2.grid.coords t)).Idx) (k : Fin 64) :
    iblk2 V c 2 t (ix2 k (y 1)) = V c main_arg7 (ix2 k ((((cfg2.win 4).blk t).view.emb y) 1)) := by
  obtain ⟨-, -, -, -, e4, e5, -, -, e8, -⟩ := idx_facts2 t
  have h2 : ((cfg2.win 2).blk t).view.emb (ix2 k (y 1)) = ix2 k ((((cfg2.win 4).blk t).view.emb y) 1) := by
    funext a; apply Fin.ext
    match a with
    | ⟨0, _⟩ => show win2_2.index t (0 : Fin 2) * 64 + 1 * k.val = k.val; omega
    | ⟨1, _⟩ => show win2_2.index t (1 : Fin 2) * 64 + 1 * (y 1).val = win2_4.index t (1 : Fin 2) * 64 + 1 * (y 1).val; omega
  show V c main_arg7 (((cfg2.win 2).blk t).view.emb (ix2 k (y 1))) = _
  rw [h2]; rfl

/-- The second bias row's block at any point, at the column of y, is the bias row at the column of y's place in
    the output. -/
theorem read2_3 (c : Dev nD) (t : Fin cfg2.N) (y : ((cfg2.win 4).xblock (cfg2.grid.coords t)).Idx) :
    iblk2 V c 3 t (ix2 (0 : Fin 1) (y 1)) = V c main_v62 (ix2 (0 : Fin 1) ((((cfg2.win 4).blk t).view.emb y) 1)) := by
  obtain ⟨-, -, -, -, -, -, e6, e7, e8, -⟩ := idx_facts2 t
  have h3 : ((cfg2.win 3).blk t).view.emb (ix2 (0 : Fin 1) (y 1)) = ix2 (0 : Fin 1) ((((cfg2.win 4).blk t).view.emb y) 1) := by
    funext a; apply Fin.ext
    match a with
    | ⟨0, _⟩ => show win2_3.index t (0 : Fin 2) * 1 + 1 * 0 = 0; omega
    | ⟨1, _⟩ => show win2_3.index t (1 : Fin 2) * 64 + 1 * (y 1).val = win2_4.index t (1 : Fin 2) * 64 + 1 * (y 1).val; omega
  show V c main_v62 (((cfg2.win 3).blk t).view.emb (ix2 (0 : Fin 1) (y 1))) = _
  rw [h3]; rfl

/-- What point t writes back is block t of the whole-array stage. -/
theorem flushed2_eq (c : Dev nD) (t : Fin cfg2.N) :
    (dat2 (F := Ideal) V c).flushed 4 t
      = ((cfg2.win 4).blk t).view.read (Elt Ideal)
          (Cert.Gcn.reluLinRelu (V c main_v60) (V c main_v61) (V c main_arg7) (V c main_v62)) := by
  show (cfg2.win 4).cut (grid2.coords t) ((dat2 V c).after 4 t) = _
  rw [after2_4]
  unfold out2_4
  rw [View.canon_unit_zero zeroOff2]
  simp only [View.ld_unit_zero (S := S5000x64) zeroOff2, View.ld_unit_zero (S := S1x64) zeroOff2, View.ld_unit_zero (S := S64x64) zeroOff2]
  funext y
  show k2_pay1 (iblk2 V c 0 t) (iblk2 V c 1 t) (iblk2 V c 2 t) (iblk2 V c 3 t) y
      = Cert.Gcn.reluLinRelu (V c main_v60) (V c main_v61) (V c main_arg7) (V c main_v62) (((cfg2.win 4).blk t).view.emb y)
  exact pay2_at (iblk2 V c 0 t) (iblk2 V c 1 t) (iblk2 V c 2 t) (iblk2 V c 3 t) _ _ _ _ y _
    (read2_0 V c t y) (read2_1 V c t) (read2_2 V c t y) (read2_3 V c t y)
/-- An index of the output array lies in point t's block iff each coordinate lies in the block's range. -/
theorem mem_blk2 (t : Fin cfg2.N) (i : S50000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v63).slice (win2_4.rect t)).set ↔ _
  rw [View.set_slice_whole, Rect.mem_set_unit]
  exact Iff.rfl

/-- The ten row blocks tile the 50000 rows: row r lies in the block of point r / 5000. -/
theorem cover2 (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  have hlt : (i 0).val / 5000 < grid2.N := by rw [N_2]; omega
  refine ⟨⟨(i 0).val / 5000, hlt⟩, flush2_4 _, ?_⟩
  rw [mem_blk2]
  obtain ⟨-, -, -, -, -, -, -, -, e8, e9⟩ := idx_facts2 ⟨(i 0).val / 5000, hlt⟩
  have e9' : win2_4.index ⟨(i 0).val / 5000, hlt⟩ (0 : Fin 2) = (i 0).val / 5000 := e9
  intro a
  match a with
  | ⟨0, _⟩ =>
    show win2_4.index ⟨(i 0).val / 5000, hlt⟩ (0 : Fin 2) * 5000 ≤ (i 0).val
      ∧ (i 0).val < win2_4.index ⟨(i 0).val / 5000, hlt⟩ (0 : Fin 2) * 5000 + 5000
    rw [e9']; omega
  | ⟨1, _⟩ =>
    show win2_4.index ⟨(i 0).val / 5000, hlt⟩ (1 : Fin 2) * 64 ≤ (i 1).val
      ∧ (i 1).val < win2_4.index ⟨(i 0).val / 5000, hlt⟩ (1 : Fin 2) * 64 + 64
    rw [e8]; omega

/-- The array region 2 leaves: the stage of the arrays the region found, at every index. -/
theorem final2 (c : Dev nD) :
    (dat2 (F := Ideal) V c).arrAt 4 cfg2.N
      = Cert.Gcn.reluLinRelu (V c main_v60) (V c main_v61) (V c main_arg7) (V c main_v62) :=
  (dat2 (F := Ideal) V c).arrAt_eq_of_cover 4 _ (fun t _ => flushed2_eq V c t) cover2

end Cert.KernelIdeal.RegionValue

end
-- ==== Proof.Region3.lean ====
/-
  Region 3 of the kernel program: the second layer of the head and the logistic function,
  out = sigmoid(h3 · Wm2 + bm2).

  The region runs a grid of ten points. Point t stages rows 5000·t … 5000·t + 4999 of the hidden array h3 (a block
  [5000, 64]), the whole weight Wm2 (one block [64, 16]) and the whole bias row bm2 (one block [1, 16]), the same at
  every point. On the blocks it computes the product (block of h3) · Wm2 — a matrix product into a zero accumulator,
  which on the extended reals is the plain sum over the 64 contracted entries, the narrowing of its operands being
  the identity there —, adds the bias row to every row, applies the logistic function 1 / (1 + exp(-z)) entry by
  entry, and writes the result back as rows 5000·t … 5000·t + 4999 of the output array. An entry (r, c) of the
  output therefore depends only on row r of h3, column c of Wm2 and entry c of bm2:
  logistic(Σ_k h3(r,k) · Wm2(k,c) + bm2(0,c)). The ten blocks tile the 50000 rows, so the array the region leaves is
  that function at every index: `Cert.Gcn.linSigmoid`.
-/
import proofs.«167458_j18124761989811_1_alg».proof.Proof.Gen.KernelIdeal.Frame
import proofs.«167458_j18124761989811_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## A [5000, 64] × [64, 16] block product read at an entry -/

/-- The two-axis zero offset, however it is spelt. -/
theorem zeroOffR3 : (![0, 0] : Fin 2 → Nat) = fun _ => 0 := funext fun a => by fin_cases a <;> rfl

theorem headDot3_lhs_0 (i : S5000x16.Idx) (q : dot_S5000x64_S64x16_S5000x16_1_0_0_1_n_n.contr.Idx) :
    (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
theorem headDot3_lhs_1 (i : S5000x16.Idx) (q : dot_S5000x64_S64x16_S5000x16_1_0_0_1_n_n.contr.Idx) :
    (dot_S5000x64_S64x16_S5000x16_1_0_0_1_n_n.lhsIdx i q 1).val = (q ⟨0, by decide⟩).val :=
  dot_S5000x64_S64x16_S5000x16_1_0_0_1_n_n.lhsIdx_val_of_single rfl i q
theorem headDot3_rhs_0 (i : S5000x16.Idx) (q : dot_S5000x64_S64x16_S5000x16_1_0_0_1_n_n.contr.Idx) :
    (dot_S5000x64_S64x16_S5000x16_1_0_0_1_n_n.rhsIdx i q 0).val = (q ⟨0, by decide⟩).val :=
  dot_S5000x64_S64x16_S5000x16_1_0_0_1_n_n.rhsIdx_val_of_single rfl i q
theorem headDot3_rhs_1 (i : S5000x16.Idx) (q : dot_S5000x64_S64x16_S5000x16_1_0_0_1_n_n.contr.Idx) :
    (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl

/-- The block product into a zero accumulator, at entry (p, q): the sum over the 64 contracted entries of
    (left operand at (p, k)) · (right operand at (k, q)). -/
theorem headDot3_apply {φ₁ φ₂ : FTy} (l : FVec Ideal S5000x64 φ₁) (r : FVec Ideal S64x16 φ₂) (p : Fin 5000) (q : Fin 16) :
    matmul dot_S5000x64_S64x16_S5000x16_1_0_0_1_n_n none l r (constant (F := Ideal) S5000x16 .f32 0x00000000#32) (ix2 p q)
      = ∑ k : Fin 64, l (ix2 p k) * r (ix2 k q) := by
  simp only [matmul]
  rw [Ideal.matmul_constant_zero_apply, ← Equiv.sum_comp (contrEquiv1 dot_S5000x64_S64x16_S5000x16_1_0_0_1_n_n 64 rfl rfl).symm]
  refine Finset.sum_congr rfl fun k _ => ?_
  have hk := contrEquiv1_symm_val dot_S5000x64_S64x16_S5000x16_1_0_0_1_n_n 64 rfl rfl k
  have el : dot_S5000x64_S64x16_S5000x16_1_0_0_1_n_n.lhsIdx (ix2 p q) ((contrEquiv1 dot_S5000x64_S64x16_S5000x16_1_0_0_1_n_n 64 rfl rfl).symm k) = ix2 p k := funext fun a => Fin.ext (by
    match a with
    | ⟨0, _⟩ => exact headDot3_lhs_0 _ _
    | ⟨1, _⟩ => exact (headDot3_lhs_1 _ _).trans hk)
  have er : dot_S5000x64_S64x16_S5000x16_1_0_0_1_n_n.rhsIdx (ix2 p q) ((contrEquiv1 dot_S5000x64_S64x16_S5000x16_1_0_0_1_n_n 64 rfl rfl).symm k) = ix2 k q := funext fun a => Fin.ext (by
    match a with
    | ⟨0, _⟩ => exact (headDot3_rhs_0 _ _).trans hk
    | ⟨1, _⟩ => exact headDot3_rhs_1 _ _)
  rw [el, er]

/-! ## Region 3 -/

/-- What the body stores, at entry (p, q) of the block: the logistic function of
    Σ_k (input block)(p,k) · (weight)(k,q) + (bias)(0,q). -/
theorem pay3_apply (v0 : Vec Ideal S5000x64 .f32) (v3 : Vec Ideal S64x16 .f32) (v6 : Vec Ideal S1x16 .f32) (p : Fin 5000) (q : Fin 16) :
    k3_pay1 v0 v3 v6 (ix2 p q) = Ideal.logistic ((∑ k : Fin 64, v0 (ix2 p k) * v3 (ix2 k q)) + v6 (ix2 (0 : Fin 1) q)) := by
  unfold k3_pay1
  show Ideal.logistic (matmul dot_S5000x64_S64x16_S5000x16_1_0_0_1_n_n none _ _ (constant (F := Ideal) S5000x16 .f32 0x00000000#32) (ix2 p q) + broadcastTo S5000x16 _ broadcasts_S1x16_S5000x16 (ix2 p q)) = _
  rw [headDot3_apply, shapeCast_self, shapeCast_self, broadcastTo_1b_ab_apply]
  rfl

/-- The index maps over the ten points: the input's block and the output's block sit at the same row block, in column
    block 0; the weight's and the bias's blocks are block (0, 0); the row block is the point's number. -/
theorem idx_facts3 : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) = t.val :=
  (by decide +kernel : ∀ t : Fin grid3.N, _)

/-- The block's payload at an entry, against a whole-array function: if the three loaded blocks read, at the
    entries the sum visits, what the arrays hold at row i 0 / column i 1, the stored entry is the head at i. -/
theorem pay3_at (x0 : Vec Ideal S5000x64 .f32) (x1 : Vec Ideal S64x16 .f32) (x2 : Vec Ideal S1x16 .f32)
    (H : S50000x64.Idx → EReal) (W : S64x16.Idx → EReal) (b : S1x16.Idx → EReal)
    (y : S5000x16.Idx) (i : S50000x16.Idx)
    (h0 : ∀ k : Fin 64, x0 (ix2 (y 0) k) = H (ix2 (i 0) k))
    (h1 : ∀ k : Fin 64, x1 (ix2 k (y 1)) = W (ix2 k (i 1)))
    (h2 : x2 (ix2 (0 : Fin 1) (y 1)) = b (ix2 (0 : Fin 1) (i 1))) :
    k3_pay1 x0 x1 x2 y = Cert.Gcn.linSigmoid H W b i := by
  obtain ⟨p, q, rfl⟩ : ∃ (p : Fin 5000) (q : Fin 16), y = ix2 p q := ⟨y 0, y 1, eq_ix2 y⟩
  rw [pay3_apply]
  unfold Cert.Gcn.linSigmoid
  rw [← h2]
  congr 2
  exact Finset.sum_congr rfl fun k _ => by rw [← h0 k, ← h1 k]

variable (V : (c : Dev nD) → (b : Ref sig .tc) → Buf (Elt Ideal) ((c : Thread nD τ).loc b))

/-- What point t writes back is block t of the whole-array head. -/
theorem flushed3_eq (c : Dev nD) (t : Fin cfg3.N) :
    (dat3 (F := Ideal) V c).flushed 3 t
      = ((cfg3.win 3).blk t).view.read (Elt Ideal) (Cert.Gcn.linSigmoid (V c main_v63) (V c main_arg9) (V c main_v64)) := by
  show (cfg3.win 3).cut (grid3.coords t) ((dat3 V c).after 3 t) = _
  rw [after3_3]
  unfold out3_3
  rw [View.canon_unit_zero zeroOffR3]
  simp only [View.ld_unit_zero (S := S5000x64) zeroOffR3, View.ld_unit_zero (S := S64x16) zeroOffR3, View.ld_unit_zero (S := S1x16) zeroOffR3]
  obtain ⟨e0, e1, e2, e3, e4, e5, e6, e7⟩ := idx_facts3 t
  funext y
  show k3_pay1 (iblk3 V c 0 t) (iblk3 V c 1 t) (iblk3 V c 2 t) y
      = Cert.Gcn.linSigmoid (V c main_v63) (V c main_arg9) (V c main_v64) (((cfg3.win 3).blk t).view.emb y)
  refine pay3_at (iblk3 V c 0 t) (iblk3 V c 1 t) (iblk3 V c 2 t) _ _ _ y _ (fun k => ?_) (fun k => ?_) ?_
  · have h0 : ((cfg3.win 0).blk t).view.emb (ix2 (y 0) k) = ix2 ((((cfg3.win 3).blk t).view.emb y) 0) k := by
      funext a; apply Fin.ext
      match a with
      | ⟨0, _⟩ => show win3_0.index t (0 : Fin 2) * 5000 + 1 * (y 0).val = win3_3.index t (0 : Fin 2) * 5000 + 1 * (y 0).val; omega
      | ⟨1, _⟩ => show win3_0.index t (1 : Fin 2) * 64 + 1 * k.val = k.val; omega
    show V c main_v63 (((cfg3.win 0).blk t).view.emb (ix2 (y 0) k)) = _
    rw [h0]; rfl
  · have h1 : ((cfg3.win 1).blk t).view.emb (ix2 k (y 1)) = ix2 k ((((cfg3.win 3).blk t).view.emb y) 1) := by
      funext a; apply Fin.ext
      match a with
      | ⟨0, _⟩ => show win3_1.index t (0 : Fin 2) * 64 + 1 * k.val = k.val; omega
      | ⟨1, _⟩ => show win3_1.index t (1 : Fin 2) * 16 + 1 * (y 1).val = win3_3.index t (1 : Fin 2) * 16 + 1 * (y 1).val; omega
    show V c main_arg9 (((cfg3.win 1).blk t).view.emb (ix2 k (y 1))) = _
    rw [h1]; rfl
  · have h2 : ((cfg3.win 2).blk t).view.emb (ix2 (0 : Fin 1) (y 1)) = ix2 (0 : Fin 1) ((((cfg3.win 3).blk t).view.emb y) 1) := by
      funext a; apply Fin.ext
      match a with
      | ⟨0, _⟩ => show win3_2.index t (0 : Fin 2) * 1 + 1 * 0 = 0; omega
      | ⟨1, _⟩ => show win3_2.index t (1 : Fin 2) * 16 + 1 * (y 1).val = win3_3.index t (1 : Fin 2) * 16 + 1 * (y 1).val; omega
    show V c main_v64 (((cfg3.win 2).blk t).view.emb (ix2 (0 : Fin 1) (y 1))) = _
    rw [h2]; rfl

/-- An index of the output array lies in point t's block iff each coordinate lies in the block's range. -/
theorem mem_blk3 (t : Fin cfg3.N) (i : S50000x16.Idx) :
    i ∈ ((cfg3.win 3).blk t).view.set ↔ ∀ a : Fin 2, win3_3.index t a * S5000x16.size a ≤ (i a).val
      ∧ (i a).val < win3_3.index t a * S5000x16.size a + S5000x16.size a := by
  show i ∈ ((View.whole main_v65).slice (win3_3.rect t)).set ↔ _
  rw [View.set_slice_whole, Rect.mem_set_unit]
  exact Iff.rfl

/-- The ten row blocks tile the 50000 rows: row r lies in the block of point r / 5000. -/
theorem cover3 (i : S50000x16.Idx) :
    ∃ t : Fin cfg3.N, (cfg3.win 3).flush t = true ∧ i ∈ ((cfg3.win 3).blk t).view.set := by
  have hi0 : (i 0).val < 50000 := (i 0).isLt
  have hi1 : (i 1).val < 16 := (i 1).isLt
  have hlt : (i 0).val / 5000 < grid3.N := by rw [N_3]; omega
  refine ⟨⟨(i 0).val / 5000, hlt⟩, flush3_3 _, ?_⟩
  rw [mem_blk3]
  obtain ⟨-, -, -, -, -, -, e6, e7⟩ := idx_facts3 ⟨(i 0).val / 5000, hlt⟩
  have e7' : win3_3.index ⟨(i 0).val / 5000, hlt⟩ (0 : Fin 2) = (i 0).val / 5000 := e7
  intro a
  match a with
  | ⟨0, _⟩ =>
    show win3_3.index ⟨(i 0).val / 5000, hlt⟩ (0 : Fin 2) * 5000 ≤ (i 0).val
      ∧ (i 0).val < win3_3.index ⟨(i 0).val / 5000, hlt⟩ (0 : Fin 2) * 5000 + 5000
    rw [e7']; omega
  | ⟨1, _⟩ =>
    show win3_3.index ⟨(i 0).val / 5000, hlt⟩ (1 : Fin 2) * 16 ≤ (i 1).val
      ∧ (i 1).val < win3_3.index ⟨(i 0).val / 5000, hlt⟩ (1 : Fin 2) * 16 + 16
    rw [e6]; omega

/-- The array region 3 leaves: the head of the arrays the region found, at every index. -/
theorem final3 (c : Dev nD) :
    (dat3 (F := Ideal) V c).arrAt 3 cfg3.N = Cert.Gcn.linSigmoid (V c main_v63) (V c main_arg9) (V c main_v64) :=
  (dat3 (F := Ideal) V c).arrAt_eq_of_cover 3 _ (fun t _ => flushed3_eq V c t) cover3

end Cert.KernelIdeal.RegionValue

end
-- ==== Proof.KernelFold.lean ====
import proofs.«167458_j18124761989811_1_alg».proof.Proof.Gen.KernelIdeal.Frame
import proofs.«167458_j18124761989811_1_alg».proof.Proof.Spec
import Idealize.ShloMosaic.Lib.Pipeline.Value
import Idealize.ShloMosaic.Lib.ValueIdx
import Idealize.ShloMosaic.Lib.StableHlo.Run

set_option maxRecDepth 16384
noncomputable section
namespace Cert.KernelIdeal.Fold
open Cert.KernelIdeal Cert.KernelIdeal.Gen Idealize.ShloMosaic Idealize.ShloMosaic.TcCoe Idealize.SL.Sem
open Idealize.ShloMosaic.Pipeline (Dat)

/-! # The run: every unscoped buffer ends at the last boundary's contents -/
section Run
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Cfg Window BodyObligation cellOf)

variable {F : FTy → Type} [FloatOps F]

local notation "𝕄" => MT nD τ sig Unit (Elt F) ℕ (UR sig nD τ) ℕ

set_option backward.isDefEq.respectTransparency.types false in
/-- Every weakly fair execution of the program from a memory with zero counters terminates, and in every final state
    each unscoped buffer of each core holds the contents the fold assigns to the last segment boundary. -/
theorem run_bufs (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)
end Run

/-! # The host terms

The neighbour aggregation and the arrays the launch stretches prepare, each written with the operations and records
of the program's host lists, in the lists' order, every definition over the previous ones. -/

/-- What a core's references hold, as a region's value facts take it. -/
abbrev VT := (c : Dev nD) → (b : Ref sig .tc) → Buf (Elt Ideal) ((c : Thread nD τ).loc b)

/-- The neighbour aggregation: row `cols e` of the result receives, for every edge `e`, the edge's weight `nrm e`
    times row `rows e` of `H` (a negative row index counted from the end), summed over the edges, from zero. -/
def agg (nrm : (⟨S850000, .f32⟩ : BufTy).Contents (Elt Ideal)) (rows cols : (⟨S850000, .i32⟩ : BufTy).Contents (Elt Ideal))
    (H : (⟨S50000x64, .f32⟩ : BufTy).Contents (Elt Ideal)) : (⟨S50000x64, .f32⟩ : BufTy).Contents (Elt Ideal) :=
  Host.scatterAdd (F := Ideal) scatter_S50000x64_S850000x1_S850000x64_1_0_0_1
    (broadcastInDim S50000x64 ![] bcast_S_S50000x64 (constant (F := Ideal) S_ .f32 0x00000000#32))
    (broadcastInDim S850000x1 ![0] bcast_S850000_S850000x1_0 cols)
    (mulf (F := Ideal)
      (broadcastInDim S850000x64 ![0, 1] bcast_S850000x1_S850000x64_0_1 (broadcastInDim S850000x1 ![0] bcast_S850000_S850000x1_0 nrm))
      (Host.gather gather_S50000x64_S850000x1_S850000x64_1_0_n_n_0_1_164 H (broadcastInDim S850000x1 ![0] bcast_S850000_S850000x1_0 (select (cmpi .slt rows (broadcastInDim S850000 ![] bcast_S_S850000 (constantI S_ 32 0#32))) (addi rows (broadcastInDim S850000 ![] bcast_S_S850000 (constantI S_ 32 50000#32))) rows))))

/-- The edges' source nodes: row 0 of the edge list, then one self loop per node. -/
def rowsOf (x1 : (⟨S2x800000, .i32⟩ : BufTy).Contents (Elt Ideal)) : (⟨S850000, .i32⟩ : BufTy).Contents (Elt Ideal) :=
  (concatenate S850000 0 [⟨S800000, shapeCast S800000 (extractStridedSlice S1x800000 ![0, 0] x1 slices_S2x800000_S1x800000_0_0) shapeCasts_S1x800000_S800000⟩, ⟨S50000, iotaInDim S50000 32 0⟩] concatenates_S800000_S50000_S850000_d0)

/-- The edges' target nodes: row 1 of the edge list, then one self loop per node. -/
def colsOf (x1 : (⟨S2x800000, .i32⟩ : BufTy).Contents (Elt Ideal)) : (⟨S850000, .i32⟩ : BufTy).Contents (Elt Ideal) :=
  (concatenate S850000 0 [⟨S800000, shapeCast S800000 (extractStridedSlice S1x800000 ![1, 0] x1 slices_S2x800000_S1x800000_1_0) shapeCasts_S1x800000_S800000⟩, ⟨S50000, iotaInDim S50000 32 0⟩] concatenates_S800000_S50000_S850000_d0)

/-- The edge weights with the self loops' weight 1 appended. -/
def ewOf (x2 : (⟨S800000, .f32⟩ : BufTy).Contents (Elt Ideal)) : (⟨S850000, .f32⟩ : BufTy).Contents (Elt Ideal) :=
  (concatenate S850000 0 [⟨S800000, x2⟩, ⟨S50000, broadcastInDim S50000 ![] bcast_S_S50000 (constant (F := Ideal) S_ .f32 0x3F800000#32)⟩] concatenates_S800000_S50000_S850000_d0)

/-- A node's degree: the sum of the weights of the edges into it, from zero. -/
def degOf (x1 : (⟨S2x800000, .i32⟩ : BufTy).Contents (Elt Ideal)) (x2 : (⟨S800000, .f32⟩ : BufTy).Contents (Elt Ideal)) : (⟨S50000, .f32⟩ : BufTy).Contents (Elt Ideal) :=
  Host.scatterAdd (F := Ideal) (φ := .f32) scatter_S50000_S850000x1_S850000_n_0_0_1 (broadcastInDim S50000 ![] bcast_S_S50000 (constant (F := Ideal) S_ .f32 0x00000000#32))
    (broadcastInDim S850000x1 ![0] bcast_S850000_S850000x1_0 (colsOf x1)) (ewOf x2)

/-- A node's factor: the inverse square root of its degree where the degree is positive, 0 elsewhere. -/
def dinvOf (x1 : (⟨S2x800000, .i32⟩ : BufTy).Contents (Elt Ideal)) (x2 : (⟨S800000, .f32⟩ : BufTy).Contents (Elt Ideal)) : (⟨S50000, .f32⟩ : BufTy).Contents (Elt Ideal) :=
  select (cmpf (F := Ideal) (φ := .f32) .ogt (degOf x1 x2) (broadcastInDim S50000 ![] bcast_S_S50000 (constant (F := Ideal) S_ .f32 0x00000000#32)))
    (Host.rsqrt (F := Ideal) (φ := .f32) (degOf x1 x2))
    (broadcastInDim S50000 ![] bcast_S_S50000 (id (constant (F := Ideal) S_ .f32 0x00000000#32)))

/-- A node index with a negative one counted from the end: `i + 50000` where `i < 0`, else `i`. -/
def wrapIdx (idx : (⟨S850000, .i32⟩ : BufTy).Contents (Elt Ideal)) : (⟨S850000, .i32⟩ : BufTy).Contents (Elt Ideal) :=
  (select (cmpi .slt idx (broadcastInDim S850000 ![] bcast_S_S850000 (constantI S_ 32 0#32))) (addi idx (broadcastInDim S850000 ![] bcast_S_S850000 (constantI S_ 32 50000#32))) idx)

/-- The symmetric normalisation of the edge weights: edge `e` gets `d (rows e) · w e · d (cols e)`, `d` the nodes'
    factors and `w` the weights with the self loops'. -/
def normOf (x1 : (⟨S2x800000, .i32⟩ : BufTy).Contents (Elt Ideal)) (x2 : (⟨S800000, .f32⟩ : BufTy).Contents (Elt Ideal)) : (⟨S850000, .f32⟩ : BufTy).Contents (Elt Ideal) :=
  mulf (F := Ideal) (φ := .f32)
    (mulf (F := Ideal) (φ := .f32) (Host.gather gather_S50000_S850000x1_S850000_n_0_n_n_0_1_1 (dinvOf x1 x2) (broadcastInDim S850000x1 ![0] bcast_S850000_S850000x1_0 (wrapIdx (rowsOf x1)))) (ewOf x2))
    (Host.gather gather_S50000_S850000x1_S850000_n_0_n_n_0_1_1 (dinvOf x1 x2) (broadcastInDim S850000x1 ![0] bcast_S850000_S850000x1_0 (wrapIdx (colsOf x1))))

/-- A bias of 64 entries as a row [1, 64]. -/
def biasRow (x : (⟨S64, .f32⟩ : BufTy).Contents (Elt Ideal)) : (⟨S1x64, .f32⟩ : BufTy).Contents (Elt Ideal) := shapeCast S1x64 x shapeCasts_S64_S1x64
/-- A bias of 16 entries as a row [1, 16]. -/
def biasRow16 (x : (⟨S16, .f32⟩ : BufTy).Contents (Elt Ideal)) : (⟨S1x16, .f32⟩ : BufTy).Contents (Elt Ideal) := shapeCast S1x16 x shapeCasts_S16_S1x16

/-! # Each host stretch as a function of the contents it starts from

A stretch's fold at one of the buffers it writes is the operations' term over the contents `V` the stretch starts
from, at the buffers the term reads. `V` is arbitrary here, so a read stays a read. -/
section Steps

/-- Where the degree is positive. -/
private def posOf (x1 : (⟨S2x800000, .i32⟩ : BufTy).Contents (Elt Ideal)) (x2 : (⟨S800000, .f32⟩ : BufTy).Contents (Elt Ideal)) : IVec S50000 1 :=
  cmpf (F := Ideal) (φ := .f32) .ogt (degOf x1 x2) (broadcastInDim S50000 ![] bcast_S_S50000 (constant (F := Ideal) S_ .f32 0x00000000#32))
/-- The degree's inverse square root. -/
private def rsOf (x1 : (⟨S2x800000, .i32⟩ : BufTy).Contents (Elt Ideal)) (x2 : (⟨S800000, .f32⟩ : BufTy).Contents (Elt Ideal)) : FVec Ideal S50000 .f32 :=
  Host.rsqrt (F := Ideal) (φ := .f32) (degOf x1 x2)
/-- The scalar 0. -/
private def zeroS : FVec Ideal S_ .f32 := constant (F := Ideal) S_ .f32 0x00000000#32
/-- The choice between a value and the scalar spread over the nodes. -/
private def pick (p : IVec S50000 1) (r : FVec Ideal S50000 .f32) (z : FVec Ideal S_ .f32) : FVec Ideal S50000 .f32 :=
  select p r (broadcastInDim S50000 ![] bcast_S_S50000 (id z))
/-- An edge's weight between its endpoints' factors. -/
private def scaleOf (d : FVec Ideal S50000 .f32) (rows cols : IVec S850000 32) (e : FVec Ideal S850000 .f32) :
    FVec Ideal S850000 .f32 :=
  mulf (F := Ideal) (φ := .f32)
    (mulf (F := Ideal) (φ := .f32) (Host.gather gather_S50000_S850000x1_S850000_n_0_n_n_0_1_1 d (broadcastInDim S850000x1 ![0] bcast_S850000_S850000x1_0 (wrapIdx rows))) e)
    (Host.gather gather_S50000_S850000x1_S850000_n_0_n_n_0_1_1 d (broadcastInDim S850000x1 ![0] bcast_S850000_S850000x1_0 (wrapIdx cols)))

private theorem dinvOf_eq (x1 : (⟨S2x800000, .i32⟩ : BufTy).Contents (Elt Ideal)) (x2 : (⟨S800000, .f32⟩ : BufTy).Contents (Elt Ideal)) :
    pick (posOf x1 x2) (rsOf x1 x2) zeroS = dinvOf x1 x2 := rfl
private theorem normOf_eq (x1 : (⟨S2x800000, .i32⟩ : BufTy).Contents (Elt Ideal)) (x2 : (⟨S800000, .f32⟩ : BufTy).Contents (Elt Ideal)) :
    scaleOf (dinvOf x1 x2) (rowsOf x1) (colsOf x1) (ewOf x2) = normOf x1 x2 := rfl

private theorem rows_step (V : Valuation τ sig (Elt Ideal)) :
    StableHlo.after hostOps0 V (Proc.devRef .tc main_v5) = rowsOf (V (Proc.devRef .tc main_arg1)) := by
  simp only [hostOps0]; after_results_simp; rfl
private theorem cols_step (V : Valuation τ sig (Elt Ideal)) :
    StableHlo.after hostOps0 V (Proc.devRef .tc main_v6) = colsOf (V (Proc.devRef .tc main_arg1)) := by
  simp only [hostOps0]; after_results_simp; rfl
private theorem ew_step (V : Valuation τ sig (Elt Ideal)) :
    StableHlo.after hostOps0 V (Proc.devRef .tc main_v8) = ewOf (V (Proc.devRef .tc main_arg2)) := by
  simp only [hostOps0]; after_results_simp; rfl
private theorem pos_step (V : Valuation τ sig (Elt Ideal)) :
    StableHlo.after hostOps0 V (Proc.devRef .tc main_v13) = posOf (V (Proc.devRef .tc main_arg1)) (V (Proc.devRef .tc main_arg2)) := by
  simp only [hostOps0]; after_results_simp; rfl
private theorem rs_step (V : Valuation τ sig (Elt Ideal)) :
    StableHlo.after hostOps0 V (Proc.devRef .tc main_v14) = rsOf (V (Proc.devRef .tc main_arg1)) (V (Proc.devRef .tc main_arg2)) := by
  simp only [hostOps0]; after_results_simp; rfl
private theorem zero_step (V : Valuation τ sig (Elt Ideal)) :
    StableHlo.after hostOps0 V (Proc.devRef .tc main_cst_2) = zeroS := by
  simp only [hostOps0]; after_results_simp; rfl
private theorem pick_step (V : Valuation τ sig (Elt Ideal)) :
    StableHlo.after hostOps0_1 V (Proc.devRef .tc main_v15) = pick (V (Proc.devRef .tc main_v13)) (V (Proc.devRef .tc main_v14)) (V (Proc.devRef .tc main_cst_2)) := by
  simp only [hostOps0_1]; after_results_simp; rfl
private theorem scale_step (V : Valuation τ sig (Elt Ideal)) :
    StableHlo.after hostOps0_2 V (Proc.devRef .tc main_v31) = scaleOf (V (Proc.devRef .tc main_v15)) (V (Proc.devRef .tc main_v5)) (V (Proc.devRef .tc main_v6)) (V (Proc.devRef .tc main_v8)) := by
  simp only [hostOps0_2]; after_results_simp; rfl
private theorem agg_step1 (V : Valuation τ sig (Elt Ideal)) :
    StableHlo.after hostOps1 V (Proc.devRef .tc main_v45) = agg (V (Proc.devRef .tc main_v31)) (V (Proc.devRef .tc main_v5)) (V (Proc.devRef .tc main_v6)) (V (Proc.devRef .tc main_v32)) := by
  simp only [hostOps1]; after_results_simp; rfl
private theorem bias_step1 (V : Valuation τ sig (Elt Ideal)) :
    StableHlo.after hostOps1 V (Proc.devRef .tc main_v46) = biasRow (V (Proc.devRef .tc main_arg4)) := by
  simp only [hostOps1]; after_results_simp; rfl
private theorem agg_step2 (V : Valuation τ sig (Elt Ideal)) :
    StableHlo.after hostOps2 V (Proc.devRef .tc main_v60) = agg (V (Proc.devRef .tc main_v31)) (V (Proc.devRef .tc main_v5)) (V (Proc.devRef .tc main_v6)) (V (Proc.devRef .tc main_v47)) := by
  simp only [hostOps2]; after_results_simp; rfl
private theorem bias_step2 (V : Valuation τ sig (Elt Ideal)) :
    StableHlo.after hostOps2 V (Proc.devRef .tc main_v61) = biasRow (V (Proc.devRef .tc main_arg6)) := by
  simp only [hostOps2]; after_results_simp; rfl
private theorem bias_step2' (V : Valuation τ sig (Elt Ideal)) :
    StableHlo.after hostOps2 V (Proc.devRef .tc main_v62) = biasRow (V (Proc.devRef .tc main_arg8)) := by
  simp only [hostOps2]; after_results_simp; rfl
private theorem bias_step3 (V : Valuation τ sig (Elt Ideal)) :
    StableHlo.after hostOps3 V (Proc.devRef .tc main_v64) = biasRow16 (V (Proc.devRef .tc main_arg10)) := by
  simp only [hostOps3]; after_results_simp; rfl
end Steps

/-! # The fold: the result buffer read back to the program's arguments

The buffer contents at the ten segment boundaries are a fold from the launch memory: a host stretch rewrites the
buffers its operations write and leaves the rest, a region leaves its output array at what its write-backs make of it
and every other buffer as entered. Each lemma below reads ONE buffer at ONE boundary: a buffer nothing has written yet
holds its launch contents, a buffer a host stretch writes holds the stretch's term over the previous boundary's
contents, a region's output holds the region's function of its input arrays. -/
section Fold
variable (m : (ℓ : Loc nD τ sig) → Buf (Elt Ideal) ℓ) (ρ : Dev nD → PrngReg) (c : Dev nD)

/-- No operation of the named host stretch writes the buffer in question: the stretch's list is opened and each
    operation's written reference is compared with the buffer. -/
local macro "unwritten " ops:ident : term =>
  `(List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

set_option quotPrecheck false
local notation "x₀" => m ((c : Thread nD τ).loc main_arg0)
local notation "x₁" => m ((c : Thread nD τ).loc main_arg1)
local notation "x₂" => m ((c : Thread nD τ).loc main_arg2)
local notation "x₃" => m ((c : Thread nD τ).loc main_arg3)
local notation "x₄" => m ((c : Thread nD τ).loc main_arg4)
local notation "x₅" => m ((c : Thread nD τ).loc main_arg5)
local notation "x₆" => m ((c : Thread nD τ).loc main_arg6)
local notation "x₇" => m ((c : Thread nD τ).loc main_arg7)
local notation "x₈" => m ((c : Thread nD τ).loc main_arg8)
local notation "x₉" => m ((c : Thread nD τ).loc main_arg9)
local notation "x₁₀" => m ((c : Thread nD τ).loc main_arg10)

/-! ## Buffers nothing has written yet -/

/-- A buffer none of the three launch stretches writes holds its launch contents when region 0 is entered. -/
private theorem W3_of_launch (b : Ref sig .tc)
    (h0 : ∀ op ∈ (hostOps0 : List (HloOp τ sig (Elt Ideal))), (Proc.devRef .tc b : DevRef τ sig) ∉ op.writes)
    (h1 : ∀ op ∈ (hostOps0_1 : List (HloOp τ sig (Elt Ideal))), (Proc.devRef .tc b : DevRef τ sig) ∉ op.writes)
    (h2 : ∀ op ∈ (hostOps0_2 : List (HloOp τ sig (Elt Ideal))), (Proc.devRef .tc b : DevRef τ sig) ∉ op.writes) :
    W3 m ρ c (Proc.devRef .tc b) = m ((c : Thread nD τ).loc b) :=
  (StableHlo.after_of_forall_not_mem _ _ h2).trans ((StableHlo.after_of_forall_not_mem _ _ h1).trans
    ((StableHlo.after_of_forall_not_mem _ _ h0).trans rfl))

/-- A buffer that is no array of region 0 or 1 and that the stretch between them does not write is at region 1's
    exit what it was at region 0's entry. -/
private theorem W6_carry (b : Ref sig .tc) (h6 : ∀ w, Pipeline.arrRef spec1 w ≠ b)
    (h1 : ∀ op ∈ (hostOps1 : List (HloOp τ sig (Elt Ideal))), (Proc.devRef .tc b : DevRef τ sig) ∉ op.writes)
    (h4 : ∀ w, Pipeline.arrRef spec0 w ≠ b) :
    W6 m ρ c (Proc.devRef .tc b) = W3 m ρ c (Proc.devRef .tc b) :=
  (W6_of_ne m ρ c b h6).trans ((StableHlo.after_of_forall_not_mem _ _ h1).trans (W4_of_ne m ρ c b h4))

private theorem arg0_W3 : W3 m ρ c (Proc.devRef .tc main_arg0) = x₀ :=
  W3_of_launch m ρ c main_arg0 (unwritten hostOps0) (unwritten hostOps0_1) (unwritten hostOps0_2)
private theorem arg3_W3 : W3 m ρ c (Proc.devRef .tc main_arg3) = x₃ :=
  W3_of_launch m ρ c main_arg3 (unwritten hostOps0) (unwritten hostOps0_1) (unwritten hostOps0_2)
private theorem arg4_W4 : W4 m ρ c (Proc.devRef .tc main_arg4) = x₄ :=
  (W4_of_ne m ρ c main_arg4 (by decide)).trans
    (W3_of_launch m ρ c main_arg4 (unwritten hostOps0) (unwritten hostOps0_1) (unwritten hostOps0_2))
private theorem arg5_W5 : W5 m ρ c (Proc.devRef .tc main_arg5) = x₅ :=
  (StableHlo.after_of_forall_not_mem (b := Proc.devRef .tc main_arg5) _ _ (unwritten hostOps1)).trans <|
  (W4_of_ne m ρ c main_arg5 (by decide)).trans
    (W3_of_launch m ρ c main_arg5 (unwritten hostOps0) (unwritten hostOps0_1) (unwritten hostOps0_2))
private theorem arg6_W6 : W6 m ρ c (Proc.devRef .tc main_arg6) = x₆ :=
  (W6_carry m ρ c main_arg6 (by decide) (unwritten hostOps1) (by decide)).trans
    (W3_of_launch m ρ c main_arg6 (unwritten hostOps0) (unwritten hostOps0_1) (unwritten hostOps0_2))
private theorem arg8_W6 : W6 m ρ c (Proc.devRef .tc main_arg8) = x₈ :=
  (W6_carry m ρ c main_arg8 (by decide) (unwritten hostOps1) (by decide)).trans
    (W3_of_launch m ρ c main_arg8 (unwritten hostOps0) (unwritten hostOps0_1) (unwritten hostOps0_2))
private theorem arg7_W7 : W7 m ρ c (Proc.devRef .tc main_arg7) = x₇ :=
  (StableHlo.after_of_forall_not_mem (b := Proc.devRef .tc main_arg7) _ _ (unwritten hostOps2)).trans <|
  (W6_carry m ρ c main_arg7 (by decide) (unwritten hostOps1) (by decide)).trans
    (W3_of_launch m ρ c main_arg7 (unwritten hostOps0) (unwritten hostOps0_1) (unwritten hostOps0_2))
private theorem arg10_W8 : W8 m ρ c (Proc.devRef .tc main_arg10) = x₁₀ :=
  (W8_of_ne m ρ c main_arg10 (by decide)).trans <|
  (StableHlo.after_of_forall_not_mem (b := Proc.devRef .tc main_arg10) _ _ (unwritten hostOps2)).trans <|
  (W6_carry m ρ c main_arg10 (by decide) (unwritten hostOps1) (by decide)).trans
    (W3_of_launch m ρ c main_arg10 (unwritten hostOps0) (unwritten hostOps0_1) (unwritten hostOps0_2))
private theorem arg9_W9 : W9 m ρ c (Proc.devRef .tc main_arg9) = x₉ :=
  (StableHlo.after_of_forall_not_mem (b := Proc.devRef .tc main_arg9) _ _ (unwritten hostOps3)).trans <|
  (W8_of_ne m ρ c main_arg9 (by decide)).trans <|
  (StableHlo.after_of_forall_not_mem (b := Proc.devRef .tc main_arg9) _ _ (unwritten hostOps2)).trans <|
  (W6_carry m ρ c main_arg9 (by decide) (unwritten hostOps1) (by decide)).trans
    (W3_of_launch m ρ c main_arg9 (unwritten hostOps0) (unwritten hostOps0_1) (unwritten hostOps0_2))

/-! ## What the launch stretches prepare: the edges' endpoints and normalised weights -/

private theorem rows_W3 : W3 m ρ c (Proc.devRef .tc main_v5) = rowsOf x₁ :=
  (StableHlo.after_of_forall_not_mem (b := Proc.devRef .tc main_v5) _ _ (unwritten hostOps0_2)).trans <| (StableHlo.after_of_forall_not_mem (b := Proc.devRef .tc main_v5) _ _ (unwritten hostOps0_1)).trans (rows_step (W0 m ρ c))
private theorem cols_W3 : W3 m ρ c (Proc.devRef .tc main_v6) = colsOf x₁ :=
  (StableHlo.after_of_forall_not_mem (b := Proc.devRef .tc main_v6) _ _ (unwritten hostOps0_2)).trans <| (StableHlo.after_of_forall_not_mem (b := Proc.devRef .tc main_v6) _ _ (unwritten hostOps0_1)).trans (cols_step (W0 m ρ c))
private theorem nrm_W3 : W3 m ρ c (Proc.devRef .tc main_v31) = normOf x₁ x₂ := by
  have e5 : W2 m ρ c (Proc.devRef .tc main_v5) = rowsOf x₁ :=
    (StableHlo.after_of_forall_not_mem (b := Proc.devRef .tc main_v5) _ _ (unwritten hostOps0_1)).trans (rows_step (W0 m ρ c))
  have e6 : W2 m ρ c (Proc.devRef .tc main_v6) = colsOf x₁ :=
    (StableHlo.after_of_forall_not_mem (b := Proc.devRef .tc main_v6) _ _ (unwritten hostOps0_1)).trans (cols_step (W0 m ρ c))
  have e8 : W2 m ρ c (Proc.devRef .tc main_v8) = ewOf x₂ :=
    (StableHlo.after_of_forall_not_mem (b := Proc.devRef .tc main_v8) _ _ (unwritten hostOps0_1)).trans (ew_step (W0 m ρ c))
  have e13 : W1 m ρ c (Proc.devRef .tc main_v13) = posOf x₁ x₂ := pos_step (W0 m ρ c)
  have e14 : W1 m ρ c (Proc.devRef .tc main_v14) = rsOf x₁ x₂ := rs_step (W0 m ρ c)
  have e0 : W1 m ρ c (Proc.devRef .tc main_cst_2) = zeroS := zero_step (W0 m ρ c)
  have e15 : W2 m ρ c (Proc.devRef .tc main_v15) = dinvOf x₁ x₂ := by
    refine (pick_step (W1 m ρ c)).trans ?_
    rw [e13, e14, e0]
    exact dinvOf_eq x₁ x₂
  refine (scale_step (W2 m ρ c)).trans ?_
  rw [e15, e5, e6, e8]
  exact normOf_eq x₁ x₂

/-! ## The three carried arrays at the later boundaries -/

private theorem nrm_W4 : W4 m ρ c (Proc.devRef .tc main_v31) = normOf x₁ x₂ :=
  (W4_of_ne m ρ c main_v31 (by decide)).trans (nrm_W3 m ρ c)
private theorem rows_W4 : W4 m ρ c (Proc.devRef .tc main_v5) = rowsOf x₁ :=
  (W4_of_ne m ρ c main_v5 (by decide)).trans (rows_W3 m ρ c)
private theorem cols_W4 : W4 m ρ c (Proc.devRef .tc main_v6) = colsOf x₁ :=
  (W4_of_ne m ρ c main_v6 (by decide)).trans (cols_W3 m ρ c)
private theorem nrm_W6 : W6 m ρ c (Proc.devRef .tc main_v31) = normOf x₁ x₂ :=
  (W6_carry m ρ c main_v31 (by decide) (unwritten hostOps1) (by decide)).trans (nrm_W3 m ρ c)
private theorem rows_W6 : W6 m ρ c (Proc.devRef .tc main_v5) = rowsOf x₁ :=
  (W6_carry m ρ c main_v5 (by decide) (unwritten hostOps1) (by decide)).trans (rows_W3 m ρ c)
private theorem cols_W6 : W6 m ρ c (Proc.devRef .tc main_v6) = colsOf x₁ :=
  (W6_carry m ρ c main_v6 (by decide) (unwritten hostOps1) (by decide)).trans (cols_W3 m ρ c)

/-! ## The regions' outputs, given each region's function of its input arrays -/

variable (h0 : ∀ (V : VT) (c : Dev nD), (dat0 (F := Ideal) V c).arrAt 2 cfg0.N = Cert.Gcn.lin (V c main_arg0) (V c main_arg3))
include h0

/-- Region 0 leaves the features times the first weight. -/
private theorem lin_W4 : W4 m ρ c (Proc.devRef .tc main_v32) = Cert.Gcn.lin x₀ x₃ := by
  refine (W4_arr m ρ c 2).trans ((h0 (V3 m ρ) c).trans ?_)
  rw [show V3 m ρ c main_arg0 = x₀ from arg0_W3 m ρ c, show V3 m ρ c main_arg3 = x₃ from arg3_W3 m ρ c]
/-- The first aggregation. -/
private theorem agg1_W5 : W5 m ρ c (Proc.devRef .tc main_v45) = (agg (normOf x₁ x₂) (rowsOf x₁) (colsOf x₁) (Cert.Gcn.lin x₀ x₃)) := by
  refine (agg_step1 (W4 m ρ c)).trans ?_
  rw [nrm_W4 m ρ c, rows_W4 m ρ c, cols_W4 m ρ c, lin_W4 m ρ c h0]
omit h0 in
private theorem bias1_W5 : W5 m ρ c (Proc.devRef .tc main_v46) = biasRow x₄ := by
  refine (bias_step1 (W4 m ρ c)).trans ?_
  rw [arg4_W4 m ρ c]

variable (h1 : ∀ (V : VT) (c : Dev nD), (dat1 (F := Ideal) V c).arrAt 3 cfg1.N = Cert.Gcn.reluLin (V c main_v45) (V c main_v46) (V c main_arg5))
include h1

/-- Region 1 leaves the first layer's output times the second weight. -/
private theorem out1_W6 : W6 m ρ c (Proc.devRef .tc main_v47) = (Cert.Gcn.reluLin (agg (normOf x₁ x₂) (rowsOf x₁) (colsOf x₁) (Cert.Gcn.lin x₀ x₃)) (biasRow x₄) x₅) := by
  refine (W6_arr m ρ c 3).trans ((h1 (V5 m ρ) c).trans ?_)
  rw [show V5 m ρ c main_v45 = _ from agg1_W5 m ρ c h0, show V5 m ρ c main_v46 = _ from bias1_W5 m ρ c,
    show V5 m ρ c main_arg5 = x₅ from arg5_W5 m ρ c]
/-- The second aggregation. -/
private theorem agg2_W7 : W7 m ρ c (Proc.devRef .tc main_v60) = (agg (normOf x₁ x₂) (rowsOf x₁) (colsOf x₁) (Cert.Gcn.reluLin (agg (normOf x₁ x₂) (rowsOf x₁) (colsOf x₁) (Cert.Gcn.lin x₀ x₃)) (biasRow x₄) x₅)) := by
  refine (agg_step2 (W6 m ρ c)).trans ?_
  rw [nrm_W6 m ρ c, rows_W6 m ρ c, cols_W6 m ρ c, out1_W6 m ρ c h0 h1]
omit h0 h1 in
private theorem bias2_W7 : W7 m ρ c (Proc.devRef .tc main_v61) = biasRow x₆ := by
  refine (bias_step2 (W6 m ρ c)).trans ?_
  rw [arg6_W6 m ρ c]
omit h0 h1 in
private theorem bias3_W7 : W7 m ρ c (Proc.devRef .tc main_v62) = biasRow x₈ := by
  refine (bias_step2' (W6 m ρ c)).trans ?_
  rw [arg8_W6 m ρ c]

variable (h2 : ∀ (V : VT) (c : Dev nD), (dat2 (F := Ideal) V c).arrAt 4 cfg2.N = Cert.Gcn.reluLinRelu (V c main_v60) (V c main_v61) (V c main_arg7) (V c main_v62))
include h2

/-- Region 2 leaves the second layer's output through the head's first layer; the last stretch does not write it. -/
private theorem out2_W9 : W9 m ρ c (Proc.devRef .tc main_v63) = (Cert.Gcn.reluLinRelu (agg (normOf x₁ x₂) (rowsOf x₁) (colsOf x₁) (Cert.Gcn.reluLin (agg (normOf x₁ x₂) (rowsOf x₁) (colsOf x₁) (Cert.Gcn.lin x₀ x₃)) (biasRow x₄) x₅)) (biasRow x₆) x₇ (biasRow x₈)) := by
  refine (StableHlo.after_of_forall_not_mem (b := Proc.devRef .tc main_v63) _ _ (unwritten hostOps3)).trans ((W8_arr m ρ c 4).trans ((h2 (V7 m ρ) c).trans ?_))
  rw [show V7 m ρ c main_v60 = _ from agg2_W7 m ρ c h0 h1, show V7 m ρ c main_v61 = _ from bias2_W7 m ρ c,
    show V7 m ρ c main_arg7 = x₇ from arg7_W7 m ρ c, show V7 m ρ c main_v62 = _ from bias3_W7 m ρ c]
omit h0 h1 h2 in
private theorem bias4_W9 : W9 m ρ c (Proc.devRef .tc main_v64) = biasRow16 x₁₀ := by
  refine (bias_step3 (W8 m ρ c)).trans ?_
  rw [arg10_W8 m ρ c]

variable (h3 : ∀ (V : VT) (c : Dev nD), (dat3 (F := Ideal) V c).arrAt 3 cfg3.N = Cert.Gcn.linSigmoid (V c main_v63) (V c main_arg9) (V c main_v64))
include h3

/-- Region 3 leaves the head's output. -/
private theorem out3_W10 : W10 m ρ c (Proc.devRef .tc main_v65) = Cert.Gcn.linSigmoid (Cert.Gcn.reluLinRelu (agg (normOf x₁ x₂) (rowsOf x₁) (colsOf x₁) (Cert.Gcn.reluLin (agg (normOf x₁ x₂) (rowsOf x₁) (colsOf x₁) (Cert.Gcn.lin x₀ x₃)) (biasRow x₄) x₅)) (biasRow x₆) x₇ (biasRow x₈)) x₉ (biasRow16 x₁₀) := by
  refine (W10_arr m ρ c 3).trans ((h3 (V9 m ρ) c).trans ?_)
  rw [show V9 m ρ c main_v63 = _ from out2_W9 m ρ c h0 h1 h2, show V9 m ρ c main_arg9 = x₉ from arg9_W9 m ρ c,
    show V9 m ρ c main_v64 = _ from bias4_W9 m ρ c]
end Fold

/-- The result buffer at the last boundary is the head applied to the second layer of the first layer of the features,
    each layer's input aggregated over the edges: the four regions' functions chained through the host stretches. -/
theorem result
    (h0 : ∀ (V : VT) (c : Dev nD), (dat0 (F := Ideal) V c).arrAt 2 cfg0.N = Cert.Gcn.lin (V c main_arg0) (V c main_arg3))
    (h1 : ∀ (V : VT) (c : Dev nD), (dat1 (F := Ideal) V c).arrAt 3 cfg1.N = Cert.Gcn.reluLin (V c main_v45) (V c main_v46) (V c main_arg5))
    (h2 : ∀ (V : VT) (c : Dev nD), (dat2 (F := Ideal) V c).arrAt 4 cfg2.N = Cert.Gcn.reluLinRelu (V c main_v60) (V c main_v61) (V c main_arg7) (V c main_v62))
    (h3 : ∀ (V : VT) (c : Dev nD), (dat3 (F := Ideal) V c).arrAt 3 cfg3.N = Cert.Gcn.linSigmoid (V c main_v63) (V c main_arg9) (V c main_v64))
    (m : (ℓ : Loc nD τ sig) → Buf (Elt Ideal) ℓ) (ρ : Dev nD → PrngReg) (c : Dev nD) :
    W10 (F := Ideal) m ρ c (Proc.devRef .tc main_v65) =
      Cert.Gcn.linSigmoid
        (Cert.Gcn.reluLinRelu
          (agg (normOf (m ((c : Thread nD τ).loc main_arg1)) (m ((c : Thread nD τ).loc main_arg2))) (rowsOf (m ((c : Thread nD τ).loc main_arg1))) (colsOf (m ((c : Thread nD τ).loc main_arg1)))
            (Cert.Gcn.reluLin
              (agg (normOf (m ((c : Thread nD τ).loc main_arg1)) (m ((c : Thread nD τ).loc main_arg2))) (rowsOf (m ((c : Thread nD τ).loc main_arg1))) (colsOf (m ((c : Thread nD τ).loc main_arg1)))
                (Cert.Gcn.lin (m ((c : Thread nD τ).loc main_arg0)) (m ((c : Thread nD τ).loc main_arg3))))
              (biasRow (m ((c : Thread nD τ).loc main_arg4))) (m ((c : Thread nD τ).loc main_arg5))))
          (biasRow (m ((c : Thread nD τ).loc main_arg6))) (m ((c : Thread nD τ).loc main_arg7)) (biasRow (m ((c : Thread nD τ).loc main_arg8))))
        (m ((c : Thread nD τ).loc main_arg9)) (biasRow16 (m ((c : Thread nD τ).loc main_arg10))) :=
  out3_W10 m ρ c h0 h1 h2 h3

end Cert.KernelIdeal.Fold
end
-- ==== Proof.KernelValue.lean ====
/-
  The kernel program's run, with its result named.

  Every weakly fair execution of the program ends with each buffer at the contents the fold through its
  segments gives it. At the result buffer that fold reads, region by region and stretch by stretch, as the
  composition  sigmoid-head ∘ (bias, rectifier, linear, bias, rectifier) ∘ aggregate ∘ (bias, rectifier, linear)
  ∘ aggregate ∘ linear  of the program's arguments; the arguments themselves end as launched.
-/
import proofs.«167458_j18124761989811_1_alg».proof.Proof.Gen.KernelIdeal.Frame
import proofs.«167458_j18124761989811_1_alg».proof.Proof.Spec
import proofs.«167458_j18124761989811_1_alg».proof.Proof.Region0
import proofs.«167458_j18124761989811_1_alg».proof.Proof.Region1
import proofs.«167458_j18124761989811_1_alg».proof.Proof.Region2
import proofs.«167458_j18124761989811_1_alg».proof.Proof.Region3
import proofs.«167458_j18124761989811_1_alg».proof.Proof.KernelFold

set_option maxRecDepth 16384

noncomputable section

namespace Cert.KernelIdeal.Result

open Cert.KernelIdeal Cert.KernelIdeal.Gen Idealize.ShloMosaic Idealize.ShloMosaic.TcCoe Idealize.SL.Sem
open Cert.KernelIdeal.RegionValue

/-- The result array as a function of the argument arrays: the four dense stages with the two neighbour
    aggregations between them. -/
def value (m : (ℓ : Loc nD τ sig) → Buf (Elt Ideal) ℓ) (c : Dev nD) : Buf (Elt Ideal) ((c.tc : Thread nD τ).loc main_v65) :=
  Cert.Gcn.linSigmoid
        (Cert.Gcn.reluLinRelu
          (Fold.agg (Fold.normOf (m ((c.tc : Thread nD τ).loc main_arg1)) (m ((c.tc : Thread nD τ).loc main_arg2))) (Fold.rowsOf (m ((c.tc : Thread nD τ).loc main_arg1))) (Fold.colsOf (m ((c.tc : Thread nD τ).loc main_arg1)))
            (Cert.Gcn.reluLin
              (Fold.agg (Fold.normOf (m ((c.tc : Thread nD τ).loc main_arg1)) (m ((c.tc : Thread nD τ).loc main_arg2))) (Fold.rowsOf (m ((c.tc : Thread nD τ).loc main_arg1))) (Fold.colsOf (m ((c.tc : Thread nD τ).loc main_arg1)))
                (Cert.Gcn.lin (m ((c.tc : Thread nD τ).loc main_arg0)) (m ((c.tc : Thread nD τ).loc main_arg3))))
              (Fold.biasRow (m ((c.tc : Thread nD τ).loc main_arg4))) (m ((c.tc : Thread nD τ).loc main_arg5))))
          (Fold.biasRow (m ((c.tc : Thread nD τ).loc main_arg6))) (m ((c.tc : Thread nD τ).loc main_arg7)) (Fold.biasRow (m ((c.tc : Thread nD τ).loc main_arg8))))
        (m ((c.tc : Thread nD τ).loc main_arg9)) (Fold.biasRow16 (m ((c.tc : Thread nD τ).loc main_arg10)))

/-- Every weakly fair execution terminates with the result buffer at `value` and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v65) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (Gen.mem_uc main_v65 (by decide))).trans (Fold.result final0 final1 final2 final3 m ρ c),
      (h c _ (Gen.mem_uc main_arg0 (by decide))).trans (Gen.W10_main_arg0 m ρ c),
      (h c _ (Gen.mem_uc main_arg1 (by decide))).trans (Gen.W10_main_arg1 m ρ c),
      (h c _ (Gen.mem_uc main_arg2 (by decide))).trans (Gen.W10_main_arg2 m ρ c),
      (h c _ (Gen.mem_uc main_arg3 (by decide))).trans (Gen.W10_main_arg3 m ρ c),
      (h c _ (Gen.mem_uc main_arg4 (by decide))).trans (Gen.W10_main_arg4 m ρ c),
      (h c _ (Gen.mem_uc main_arg5 (by decide))).trans (Gen.W10_main_arg5 m ρ c),
      (h c _ (Gen.mem_uc main_arg6 (by decide))).trans (Gen.W10_main_arg6 m ρ c),
      (h c _ (Gen.mem_uc main_arg7 (by decide))).trans (Gen.W10_main_arg7 m ρ c),
      (h c _ (Gen.mem_uc main_arg8 (by decide))).trans (Gen.W10_main_arg8 m ρ c),
      (h c _ (Gen.mem_uc main_arg9 (by decide))).trans (Gen.W10_main_arg9 m ρ c),
      (h c _ (Gen.mem_uc main_arg10 (by decide))).trans (Gen.W10_main_arg10 m ρ c)⟩)
    (Fold.run_bufs m ρ)

end Cert.KernelIdeal.Result

end
-- ==== Proof.RefStages.lean ====
/-
  The reference's four dense stages are the four functions of the specification.

  Each stage of the plain reference is a short chain of whole-array operations: a contraction over the 64 entries of
  the shared axis, a bias row broadcast down the 50000 rows, a rectifier (the maximum with the constant 0), and for
  the head the expression 1 / (1 + exp(-z)). Read at an index (r, c), each chain is the specification's formula:
  the contraction is the finite sum over k of left(r, k) * right(k, c), the broadcast bias reads the row's entry
  (0, c), the constant 0.0 denotes the extended real 0, and the constant 1.0 denotes 1, so the head's expression is
  the logistic function. The two aggregated arrays that feed the second and third stage are never opened: they enter
  only as "some array with 50000 rows and 64 columns".
-/
import proofs.«167458_j18124761989811_1_alg».proof.Proof.Gen.ReferenceIdeal.Read
import proofs.«167458_j18124761989811_1_alg».proof.Proof.Spec
import Idealize.ShloMosaic.Lib.Pipeline.Value
import Idealize.ShloMosaic.Lib.ValueIdx
import Idealize.ShloMosaic.PureOps.Ideal.Laws

noncomputable section
namespace Cert.ReferenceIdeal.Stage
open Cert.ReferenceIdeal Cert.ReferenceIdeal.Read Idealize.ShloMosaic Idealize.ShloMosaic.TcCoe Idealize.ShloMosaic.ValueIdx

/-- The pattern of `1.0` denotes the extended real `1`. -/
theorem ofBits_one_f32 : Ideal.ofBits .f32 0x3F800000#32 = (1 : EReal) := by
  simp [Ideal.ofBits, Ideal.ieee, -EReal.coe_mul]; norm_num

/-! ### The index maps of the contractions and broadcasts, in coordinates

  A contraction's left operand is read at (r, k) and its right operand at (k, c); a bias row broadcast down the rows
  is read at (0, c). One equation per operation of the reference that has such a map. -/

/-- The left operand of the contraction %4 is read at (r, k). -/
theorem lidx_v4 (i : S50000x64.Idx) (k : Fin 64) : lidx_main_v4 i k = ix2 (i 0) k :=
  funext fun a => by match a with | ⟨0, _⟩ => rfl | ⟨1, _⟩ => rfl
/-- The right operand of the contraction %4 is read at (k, c). -/
theorem ridx_v4 (i : S50000x64.Idx) (k : Fin 64) : ridx_main_v4 i k = ix2 k (i 1) :=
  funext fun a => by match a with | ⟨0, _⟩ => rfl | ⟨1, _⟩ => rfl
/-- The left operand of the contraction %50 is read at (r, k). -/
theorem lidx_v50 (i : S50000x64.Idx) (k : Fin 64) : lidx_main_v50 i k = ix2 (i 0) k :=
  funext fun a => by match a with | ⟨0, _⟩ => rfl | ⟨1, _⟩ => rfl
/-- The right operand of the contraction %50 is read at (k, c). -/
theorem ridx_v50 (i : S50000x64.Idx) (k : Fin 64) : ridx_main_v50 i k = ix2 k (i 1) :=
  funext fun a => by match a with | ⟨0, _⟩ => rfl | ⟨1, _⟩ => rfl
/-- The left operand of the contraction %96 is read at (r, k). -/
theorem lidx_v96 (i : S50000x64.Idx) (k : Fin 64) : lidx_main_v96 i k = ix2 (i 0) k :=
  funext fun a => by match a with | ⟨0, _⟩ => rfl | ⟨1, _⟩ => rfl
/-- The right operand of the contraction %96 is read at (k, c). -/
theorem ridx_v96 (i : S50000x64.Idx) (k : Fin 64) : ridx_main_v96 i k = ix2 k (i 1) :=
  funext fun a => by match a with | ⟨0, _⟩ => rfl | ⟨1, _⟩ => rfl
/-- The left operand of the contraction %101 is read at (r, k). -/
theorem lidx_v101 (i : S50000x16.Idx) (k : Fin 64) : lidx_main_v101 i k = ix2 (i 0) k :=
  funext fun a => by match a with | ⟨0, _⟩ => rfl | ⟨1, _⟩ => rfl
/-- The right operand of the contraction %101 is read at (k, c). -/
theorem ridx_v101 (i : S50000x16.Idx) (k : Fin 64) : ridx_main_v101 i k = ix2 k (i 1) :=
  funext fun a => by match a with | ⟨0, _⟩ => rfl | ⟨1, _⟩ => rfl
/-- The bias row broadcast %98 is read at (0, c). -/
theorem bidx_v98 (i : S50000x64.Idx) : idx_main_v98 i = ix2 (0 : Fin 1) (i 1) :=
  funext fun a => by match a with | ⟨0, _⟩ => rfl | ⟨1, _⟩ => rfl
/-- The bias row broadcast %103 is read at (0, c). -/
theorem bidx_v103 (i : S50000x16.Idx) : idx_main_v103 i = ix2 (0 : Fin 1) (i 1) :=
  funext fun a => by match a with | ⟨0, _⟩ => rfl | ⟨1, _⟩ => rfl
/-- Under the contraction %50 the bias row of %47 is read at (0, k): the broadcast's map after the left operand's. -/
theorem bias_v47 (i : S50000x64.Idx) (k : Fin 64) : idx_main_v47 (lidx_main_v50 i k) = ix2 (0 : Fin 1) k :=
  funext fun a => by match a with | ⟨0, _⟩ => rfl | ⟨1, _⟩ => rfl
/-- Under the contraction %96 the bias row of %93 is read at (0, k): the broadcast's map after the left operand's. -/
theorem bias_v93 (i : S50000x64.Idx) (k : Fin 64) : idx_main_v93 (lidx_main_v96 i k) = ix2 (0 : Fin 1) k :=
  funext fun a => by match a with | ⟨0, _⟩ => rfl | ⟨1, _⟩ => rfl

variable (x0 : (⟨S50000x64, .f32⟩ : BufTy).Contents (Elt Ideal)) (x1 : (⟨S2x800000, .i32⟩ : BufTy).Contents (Elt Ideal))
  (x2 : (⟨S800000, .f32⟩ : BufTy).Contents (Elt Ideal)) (x3 : (⟨S64x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x64, .f32⟩ : BufTy).Contents (Elt Ideal))
  (x8 : (⟨S64, .f32⟩ : BufTy).Contents (Elt Ideal)) (x9 : (⟨S64x16, .f32⟩ : BufTy).Contents (Elt Ideal))
  (x10 : (⟨S16, .f32⟩ : BufTy).Contents (Elt Ideal))

/-- The first stage: the contraction of the node features with the first weight. -/
theorem stage_lin : val_main_v4 (F := Ideal) x0 x3 = Cert.Gcn.lin x0 x3 := by
  funext i
  rw [val_main_v4_apply]
  simp only [lidx_v4, ridx_v4]
  rfl

/-- The second stage: bias, rectifier, contraction with the second weight, over an unopened aggregated array. -/
theorem stage_reluLin : val_main_v50 (F := Ideal) x0 x1 x2 x3 x4 x5
    = Cert.Gcn.reluLin (val_main_v45 (F := Ideal) x0 x1 x2 x3) (val_main_v46 (F := Ideal) x4) x5 := by
  funext i
  rw [val_main_v50_apply]
  refine Finset.sum_congr rfl fun k _ => ?_
  rw [val_main_v49_apply, val_main_v48_apply, val_main_v47_apply, val_main_call1_v0_apply, val_main_call1_cst_apply,
    bias_v47, lidx_v50, ridx_v50]
  simp only [Ideal.maximumf_def, Ideal.addf_def, Ideal.ofBits_def, Ideal.ofBits_zero_f32]
  rfl

/-- The third stage: the second stage's shape on the second aggregated array, then a second bias and rectifier. -/
theorem stage_reluLinRelu : val_main_v100 (F := Ideal) x0 x1 x2 x3 x4 x5 x6 x7 x8
    = Cert.Gcn.reluLinRelu (val_main_v91 (F := Ideal) x0 x1 x2 x3 x4 x5) (val_main_v92 (F := Ideal) x6) x7 (val_main_v97 (F := Ideal) x8) := by
  funext i
  have hsum : (∑ k : Fin 64, (val_main_v95 (F := Ideal) x0 x1 x2 x3 x4 x5 x6) (lidx_main_v96 i k) * x7 (ridx_main_v96 i k))
      = Cert.Gcn.reluLin (val_main_v91 (F := Ideal) x0 x1 x2 x3 x4 x5) (val_main_v92 (F := Ideal) x6) x7 i := by
    refine Finset.sum_congr rfl fun k _ => ?_
    rw [val_main_v95_apply, val_main_v94_apply, val_main_v93_apply, val_main_call3_v0_apply, val_main_call3_cst_apply,
      bias_v93, lidx_v96, ridx_v96]
    simp only [Ideal.maximumf_def, Ideal.addf_def, Ideal.ofBits_def, Ideal.ofBits_zero_f32]
    rfl
  rw [val_main_v100_apply, val_main_v99_apply, val_main_v98_apply, val_main_call4_v0_apply, val_main_call4_cst_apply,
    val_main_v96_apply, hsum]
  simp only [Ideal.maximumf_def, Ideal.addf_def, Ideal.ofBits_def, Ideal.ofBits_zero_f32, bidx_v98]
  rfl

/-- The head: contraction with the head's weight, bias, and `1 / (1 + exp(-z))`, which is the logistic function. -/
theorem stage_linSigmoid : val_main_v110 (F := Ideal) x0 x1 x2 x3 x4 x5 x6 x7 x8 x9 x10
    = Cert.Gcn.linSigmoid (val_main_v100 (F := Ideal) x0 x1 x2 x3 x4 x5 x6 x7 x8) x9 (val_main_v102 (F := Ideal) x10) := by
  funext i
  rw [val_main_v110_apply, val_main_v109_apply, val_main_cst_21_apply, val_main_v108_apply, val_main_v107_apply,
    val_main_cst_20_apply, val_main_v106_apply, val_main_v105_apply, val_main_v104_apply, val_main_v103_apply,
    val_main_v101_apply]
  simp only [Ideal.hostDivf_def, Ideal.addf_def, Ideal.hostUnary_exp_def, Ideal.hostNegf_def, Ideal.negf_def,
    Ideal.ofBits_def, ofBits_one_f32, lidx_v101, ridx_v101, bidx_v103]
  rfl

end Cert.ReferenceIdeal.Stage
end
-- ==== Proof.RefGlue.lean ====
/-
  The reference's glue between its dense stages: its whole result is one composition of the four dense functions of
  the specification and ONE neighbour aggregation.

  Between two dense stages the reference aggregates over the 850000 edges (the 800000 given ones and one self loop
  per node): it gathers the source row of each edge, scales it by the edge's normalisation coefficient, and adds
  the scaled rows into the rows of the target nodes, starting from the zero array. The same aggregation is used
  twice, on the first and on the second layer's features; for the second layer the reference recomputes the source
  and target node lists and the coefficients, by the same operations on the same arguments, so they are the same
  arrays. Nothing here is read at an index: both sides of every equation are the same tree of whole-array
  operations once the names of the intermediate values are opened.
-/
import proofs.«167458_j18124761989811_1_alg».proof.Proof.Gen.ReferenceIdeal.Read
import proofs.«167458_j18124761989811_1_alg».proof.Proof.Spec
import proofs.«167458_j18124761989811_1_alg».proof.Proof.RefStages

noncomputable section
namespace Cert.ReferenceIdeal.Glue
open Cert.ReferenceIdeal Cert.ReferenceIdeal.Gen Cert.ReferenceIdeal.Read Cert.ReferenceIdeal.Stage Idealize.ShloMosaic
  Idealize.ShloMosaic.TcCoe Idealize.SL.Sem Idealize.ShloMosaic.StableHlo

/-- The neighbour aggregation as the reference spells it: with `nrm` the coefficient of each edge, `rows` its source
    node and `cols` its target node, the array whose row `t` is the sum over the edges into `t` of the coefficient
    times the source's row of `H` (a negative source index counts from the end). -/
def aggR (nrm : (⟨S850000, .f32⟩ : BufTy).Contents (Elt Ideal)) (rows cols : (⟨S850000, .i32⟩ : BufTy).Contents (Elt Ideal))
    (H : (⟨S50000x64, .f32⟩ : BufTy).Contents (Elt Ideal)) : (⟨S50000x64, .f32⟩ : BufTy).Contents (Elt Ideal) :=
  Host.scatterAdd scatter_S50000x64_S850000x1_S850000x64_1_0_0_1
    (broadcastInDim S50000x64 ![] bcast_S_S50000x64 (constant (F := Ideal) S_ .f32 0x00000000#32))
    (broadcastInDim S850000x1 ![0] bcast_S850000_S850000x1_0 cols)
    (mulf
      (broadcastInDim S850000x64 ![0, 1] bcast_S850000x1_S850000x64_0_1
        (broadcastInDim S850000x1 ![0] bcast_S850000_S850000x1_0 nrm))
      (Host.gather gather_S50000x64_S850000x1_S850000x64_1_0_n_n_0_1_164 H
        (broadcastInDim S850000x1 ![0] bcast_S850000_S850000x1_0
          (select (cmpi .slt rows (broadcastInDim S850000 ![] bcast_S_S850000 (constantI S_ 32 0#32)))
            (addi rows (broadcastInDim S850000 ![] bcast_S_S850000 (constantI S_ 32 50000#32)))
            rows))))

variable (x0 : (⟨S50000x64, .f32⟩ : BufTy).Contents (Elt Ideal)) (x1 : (⟨S2x800000, .i32⟩ : BufTy).Contents (Elt Ideal))
  (x2 : (⟨S800000, .f32⟩ : BufTy).Contents (Elt Ideal)) (x3 : (⟨S64x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x64, .f32⟩ : BufTy).Contents (Elt Ideal))
  (x8 : (⟨S64, .f32⟩ : BufTy).Contents (Elt Ideal)) (x9 : (⟨S64x16, .f32⟩ : BufTy).Contents (Elt Ideal))
  (x10 : (⟨S16, .f32⟩ : BufTy).Contents (Elt Ideal))

/-- The first layer's aggregated array is the aggregation of the first dense stage's result. -/
theorem agg1_eq : val_main_v45 (F := Ideal) x0 x1 x2 x3
    = aggR (val_main_v32 (F := Ideal) x1 x2) (val_main_v6 (F := Ideal) x1) (val_main_v7 (F := Ideal) x1) (val_main_v4 (F := Ideal) x0 x3) := by
  unfold val_main_v45 val_main_v44 val_main_v43 val_main_cst_8 val_main_v42 val_main_v41 val_main_v40 val_main_v39
    val_main_v38 val_main_v37 val_main_v36 val_main_c_7 val_main_v35 val_main_v34 val_main_c_6 val_main_v33 aggR
  rfl

/-! ### The second layer's recomputed edge data are the first layer's -/

/-- The second copy of the source node list is the first: the same concatenation of the same two lists. -/
theorem rows2_eq : val_main_v52 (F := Ideal) x1 = val_main_v6 (F := Ideal) x1 := by
  unfold val_main_v52 val_main_v6 val_main_v51 val_main_v5
  rfl

/-- The second copy of the target node list is the first. -/
theorem cols2_eq : val_main_v53 (F := Ideal) x1 = val_main_v7 (F := Ideal) x1 := by
  unfold val_main_v53 val_main_v7 val_main_v51 val_main_v5
  rfl

/-- The second copy of the edge values (the given ones, then a one per self loop) is the first. -/
theorem vals2_eq : val_main_v55 (F := Ideal) x2 = val_main_v9 (F := Ideal) x2 := by
  unfold val_main_v55 val_main_v9 val_main_v54 val_main_v8 val_main_cst_9 val_main_cst
  rfl

/-- The second copy of the degree vector (the edge values added into their target nodes) is the first. -/
theorem deg2_eq : val_main_v58 (F := Ideal) x1 x2 = val_main_v12 (F := Ideal) x1 x2 := by
  unfold val_main_v58 val_main_v12 val_main_v57 val_main_v11 val_main_v56 val_main_v10 val_main_cst_10 val_main_cst_0
  rw [cols2_eq, vals2_eq]

/-- The second copy of the inverse square root of the degrees (zero where the degree is not positive) is the first. -/
theorem dinv2_eq : val_main_v62 (F := Ideal) x1 x2 = val_main_v16 (F := Ideal) x1 x2 := by
  unfold val_main_v62 val_main_v16 val_main_v60 val_main_v14 val_main_v61 val_main_v15 val_main_v59 val_main_v13
    val_main_cst_11 val_main_cst_1 val_main_call2_v1 val_main_call0_v1 val_main_call2_v0 val_main_call0_v0
    val_main_cst_12 val_main_cst_2
  rw [deg2_eq]

/-- The second copy of the source indices with negative ones counted from the end is the first. -/
theorem rowsWrap2_eq : val_main_v68 (F := Ideal) x1 = val_main_v22 (F := Ideal) x1 := by
  unfold val_main_v68 val_main_v22 val_main_v67 val_main_v21 val_main_v64 val_main_v18 val_main_v66 val_main_v20
    val_main_v63 val_main_v17 val_main_v65 val_main_v19 val_main_c_13 val_main_c val_main_c_14 val_main_c_3
  rw [rows2_eq]

/-- The second copy of the target indices with negative ones counted from the end is the first. -/
theorem colsWrap2_eq : val_main_v76 (F := Ideal) x1 = val_main_v30 (F := Ideal) x1 := by
  unfold val_main_v76 val_main_v30 val_main_v75 val_main_v29 val_main_v72 val_main_v26 val_main_v74 val_main_v28
    val_main_v71 val_main_v25 val_main_v73 val_main_v27 val_main_c_15 val_main_c_4 val_main_c_16 val_main_c_5
  rw [cols2_eq]

/-- The second copy of the edge coefficients (inverse root degree of the source, times the edge value, times the
    inverse root degree of the target) is the first. -/
theorem norm2_eq : val_main_v78 (F := Ideal) x1 x2 = val_main_v32 (F := Ideal) x1 x2 := by
  unfold val_main_v78 val_main_v32 val_main_v70 val_main_v24 val_main_v77 val_main_v31 val_main_v69 val_main_v23
  rw [dinv2_eq, rowsWrap2_eq, colsWrap2_eq, vals2_eq]

/-- The second layer's aggregated array is the aggregation of the second dense stage's result. -/
theorem agg2_eq : val_main_v91 (F := Ideal) x0 x1 x2 x3 x4 x5
    = aggR (val_main_v32 (F := Ideal) x1 x2) (val_main_v6 (F := Ideal) x1) (val_main_v7 (F := Ideal) x1) (val_main_v50 (F := Ideal) x0 x1 x2 x3 x4 x5) := by
  unfold val_main_v91 val_main_v90 val_main_v89 val_main_cst_19 val_main_v88 val_main_v87 val_main_v86 val_main_v85
    val_main_v84 val_main_v83 val_main_v82 val_main_c_18 val_main_v81 val_main_v80 val_main_c_17 val_main_v79 aggR
  rw [norm2_eq, rows2_eq, cols2_eq]

/-- The reference's whole result: the four dense functions composed through the one aggregation. -/
theorem result_eq : val_main_v110 (F := Ideal) x0 x1 x2 x3 x4 x5 x6 x7 x8 x9 x10
    = Cert.Gcn.linSigmoid
        (Cert.Gcn.reluLinRelu
          (aggR (val_main_v32 (F := Ideal) x1 x2) (val_main_v6 (F := Ideal) x1) (val_main_v7 (F := Ideal) x1)
            (Cert.Gcn.reluLin
              (aggR (val_main_v32 (F := Ideal) x1 x2) (val_main_v6 (F := Ideal) x1) (val_main_v7 (F := Ideal) x1)
                (Cert.Gcn.lin x0 x3))
              (val_main_v46 (F := Ideal) x4) x5))
          (val_main_v92 (F := Ideal) x6) x7 (val_main_v97 (F := Ideal) x8))
        x9 (val_main_v102 (F := Ideal) x10) := by
  rw [stage_linSigmoid, stage_reluLinRelu, agg2_eq, stage_reluLin, agg1_eq, stage_lin]

end Cert.ReferenceIdeal.Glue
end
-- ==== Proof.LibBiasRow.lean ====
/-
  A vector of n entries laid out as a row [1, n] — two spellings of one array.

  jnp writes `b[None, :]` either as `broadcast_in_dim` with the vector's axis sent to axis 1, or as a reshape
  [n] → [1, n]. Both read, at (0, i), the vector at i: the broadcast because axis 1 of the result is the
  vector's axis and axis 0 is new, the reshape because row-major position 0·n + i is position i. So the two
  rows are equal as arrays, for every n and every element type.
-/
import Idealize.ShloMosaic.PureOps.Ideal
import Idealize.ShloMosaic.Lib.Pipeline.Value
import Idealize.ShloMosaic.Lib.ValueIdx
import Idealize.ShloMosaic.Lib.ValueLayout

noncomputable section

namespace Cert.LibBiasRow

open Idealize.ShloMosaic Idealize.ShloMosaic.ValueIdx

/-- A vector [n] broadcast in dimension 1 to a row [1, n] is the vector reshaped to [1, n]. -/
theorem bcastRow_eq_reshape {n : Nat} {α : Type} (x : (⟨1, ![n]⟩ : Shape).Idx → α)
    (hb : (⟨1, ![n]⟩ : Shape).BroadcastsInDim ⟨2, ![1, n]⟩ ![1])
    (hs : (⟨1, ![n]⟩ : Shape).ShapeCasts ⟨2, ![1, n]⟩) :
    broadcastInDim ⟨2, ![1, n]⟩ ![1] hb x = shapeCast ⟨2, ![1, n]⟩ x hs := by
  funext j
  obtain ⟨u, i, rfl⟩ : ∃ (u : Fin 1) (i : Fin n), j = ix2 u i := ⟨j 0, j 1, eq_ix2 j⟩
  rw [shapeCast_a_1a_apply]
  refine broadcastInDim_apply _ hb x _ (ix1 i) (fun a => ?_)
  match a with
  | ⟨0, _⟩ =>
    show i.val = if n = 1 then 0 else i.val
    have := i.isLt
    split <;> omega

end Cert.LibBiasRow

end
-- ==== Proof.Bridge.lean ====
/-
  The kernel program's result and the reference's are one function of the arguments.

  Both are the same composition: the linear map, the neighbour aggregation, (bias, rectifier, linear map), the
  aggregation again, (bias, rectifier, linear map, bias, rectifier), and the head (linear map, bias, logistic
  function). The four dense stages are literally the same functions on both sides. The aggregation — gather the
  rows named by the source indices, scale each by the edge's normalisation, add them into the rows named by the
  target indices — is written by the two programs with the same operations on the same operands, as are the
  index lists and the normalisation it uses, so those agree by unfolding the names. A bias enters the kernel
  program as the vector reshaped to one row and the reference as the vector broadcast to one row: one array.
-/
import proofs.«167458_j18124761989811_1_alg».proof.Proof.Gen.KernelIdeal.Frame
import proofs.«167458_j18124761989811_1_alg».proof.Proof.Gen.ReferenceIdeal.Read
import proofs.«167458_j18124761989811_1_alg».proof.Proof.Spec
import proofs.«167458_j18124761989811_1_alg».proof.Proof.KernelFold
import proofs.«167458_j18124761989811_1_alg».proof.Proof.RefStages
import proofs.«167458_j18124761989811_1_alg».proof.Proof.RefGlue
import proofs.«167458_j18124761989811_1_alg».proof.Proof.LibBiasRow

set_option maxRecDepth 16384

noncomputable section

namespace Cert.Bridge

open Idealize.ShloMosaic Idealize.ShloMosaic.TcCoe
open Cert.ReferenceIdeal.Read

/-- The two programs write the neighbour aggregation with the same operations. -/
theorem agg_eq (nrm : (⟨Cert.KernelIdeal.S850000, .f32⟩ : BufTy).Contents (Elt Ideal)) (rows cols : (⟨Cert.KernelIdeal.S850000, .i32⟩ : BufTy).Contents (Elt Ideal)) (H : (⟨Cert.KernelIdeal.S50000x64, .f32⟩ : BufTy).Contents (Elt Ideal)) :
    Cert.KernelIdeal.Fold.agg nrm rows cols H = Cert.ReferenceIdeal.Glue.aggR nrm rows cols H := by
  unfold Cert.KernelIdeal.Fold.agg Cert.ReferenceIdeal.Glue.aggR
  rfl

/-- The source-index list (the edges' sources, then every node once for its self loop). -/
theorem rows_eq (x1 : (⟨Cert.KernelIdeal.S2x800000, .i32⟩ : BufTy).Contents (Elt Ideal)) : Cert.KernelIdeal.Fold.rowsOf x1 = val_main_v6 (F := Ideal) x1 := by
  unfold Cert.KernelIdeal.Fold.rowsOf
  rfl

/-- The target-index list. -/
theorem cols_eq (x1 : (⟨Cert.KernelIdeal.S2x800000, .i32⟩ : BufTy).Contents (Elt Ideal)) : Cert.KernelIdeal.Fold.colsOf x1 = val_main_v7 (F := Ideal) x1 := by
  unfold Cert.KernelIdeal.Fold.colsOf
  rfl

/-- The edges' symmetric normalisation d^(-1/2)[source] · w · d^(-1/2)[target]. -/
theorem norm_eq (x1 : (⟨Cert.KernelIdeal.S2x800000, .i32⟩ : BufTy).Contents (Elt Ideal)) (x2 : (⟨Cert.KernelIdeal.S800000, .f32⟩ : BufTy).Contents (Elt Ideal)) :
    Cert.KernelIdeal.Fold.normOf x1 x2 = val_main_v32 (F := Ideal) x1 x2 := by
  unfold Cert.KernelIdeal.Fold.normOf
  rfl

/-- A bias of 64 entries as a row: broadcast to [1, 64] and reshaped to [1, 64] are one array. -/
theorem row64_eq (x : (⟨Cert.KernelIdeal.S64, .f32⟩ : BufTy).Contents (Elt Ideal)) : val_main_v46 (F := Ideal) x = Cert.KernelIdeal.Fold.biasRow x := by
  unfold val_main_v46 Cert.KernelIdeal.Fold.biasRow
  exact Cert.LibBiasRow.bcastRow_eq_reshape x _ _
theorem row64_eq' (x : (⟨Cert.KernelIdeal.S64, .f32⟩ : BufTy).Contents (Elt Ideal)) : val_main_v92 (F := Ideal) x = Cert.KernelIdeal.Fold.biasRow x := by
  unfold val_main_v92 Cert.KernelIdeal.Fold.biasRow
  exact Cert.LibBiasRow.bcastRow_eq_reshape x _ _
theorem row64_eq'' (x : (⟨Cert.KernelIdeal.S64, .f32⟩ : BufTy).Contents (Elt Ideal)) : val_main_v97 (F := Ideal) x = Cert.KernelIdeal.Fold.biasRow x := by
  unfold val_main_v97 Cert.KernelIdeal.Fold.biasRow
  exact Cert.LibBiasRow.bcastRow_eq_reshape x _ _
/-- The head's bias of 16 entries as a row. -/
theorem row16_eq (x : (⟨Cert.KernelIdeal.S16, .f32⟩ : BufTy).Contents (Elt Ideal)) : val_main_v102 (F := Ideal) x = Cert.KernelIdeal.Fold.biasRow16 x := by
  unfold val_main_v102 Cert.KernelIdeal.Fold.biasRow16
  exact Cert.LibBiasRow.bcastRow_eq_reshape x _ _

/-- The kernel program's composition of its stages is the reference's result term, for all argument arrays. -/
theorem kernel_eq_reference (x0 : (⟨Cert.KernelIdeal.S50000x64, .f32⟩ : BufTy).Contents (Elt Ideal)) (x1 : (⟨Cert.KernelIdeal.S2x800000, .i32⟩ : BufTy).Contents (Elt Ideal)) (x2 : (⟨Cert.KernelIdeal.S800000, .f32⟩ : BufTy).Contents (Elt Ideal))
    (x3 : (⟨Cert.KernelIdeal.S64x64, .f32⟩ : BufTy).Contents (Elt Ideal)) (x4 : (⟨Cert.KernelIdeal.S64, .f32⟩ : BufTy).Contents (Elt Ideal)) (x5 : (⟨Cert.KernelIdeal.S64x64, .f32⟩ : BufTy).Contents (Elt Ideal)) (x6 : (⟨Cert.KernelIdeal.S64, .f32⟩ : BufTy).Contents (Elt Ideal))
    (x7 : (⟨Cert.KernelIdeal.S64x64, .f32⟩ : BufTy).Contents (Elt Ideal)) (x8 : (⟨Cert.KernelIdeal.S64, .f32⟩ : BufTy).Contents (Elt Ideal)) (x9 : (⟨Cert.KernelIdeal.S64x16, .f32⟩ : BufTy).Contents (Elt Ideal)) (x10 : (⟨Cert.KernelIdeal.S16, .f32⟩ : BufTy).Contents (Elt Ideal)) :
    Cert.Gcn.linSigmoid
        (Cert.Gcn.reluLinRelu
          (Cert.KernelIdeal.Fold.agg (Cert.KernelIdeal.Fold.normOf x1 x2) (Cert.KernelIdeal.Fold.rowsOf x1) (Cert.KernelIdeal.Fold.colsOf x1)
            (Cert.Gcn.reluLin
              (Cert.KernelIdeal.Fold.agg (Cert.KernelIdeal.Fold.normOf x1 x2) (Cert.KernelIdeal.Fold.rowsOf x1) (Cert.KernelIdeal.Fold.colsOf x1)
                (Cert.Gcn.lin x0 x3))
              (Cert.KernelIdeal.Fold.biasRow x4) x5))
          (Cert.KernelIdeal.Fold.biasRow x6) x7 (Cert.KernelIdeal.Fold.biasRow x8))
        x9 (Cert.KernelIdeal.Fold.biasRow16 x10)
      = val_main_v110 (F := Ideal) x0 x1 x2 x3 x4 x5 x6 x7 x8 x9 x10 := by
  rw [Cert.ReferenceIdeal.Glue.result_eq, row64_eq, row64_eq', row64_eq'', row16_eq,
    agg_eq, agg_eq, rows_eq, cols_eq, norm_eq]

end Cert.Bridge

end
-- ==== Proof.lean ====
/-
  The certificate of a two-layer graph convolution with a two-layer head: a kernel program of four dense
  stages (each a grid of ten row blocks) with the sparse neighbour aggregation between them, against the
  plain reference.

  Frames. The kernel program's two printings terminate with their arguments unchanged by their frame
  certificates; the reference, a sequence of host operations, by its run with the result dropped.
  Idealization. The ideal reading rewrites nothing in the kernel program, so there is nothing to preserve.
  Values. On the extended reals each dense stage of the kernel program leaves, block by block, one function
  of whole arrays (Region0 … Region3: a linear map; bias, rectifier, linear map; the same with a second bias
  and rectifier; linear map, bias, logistic function), the ten blocks tiling the 50000 rows. Reading the
  result buffer back through the program's segments (KernelFold, KernelValue) gives the composition of these
  with the aggregation; the reference's result is the same composition (RefStages, RefGlue), the two programs
  writing the aggregation, its index lists and its normalisation with the same operations and a bias row in two
  spellings of one array (Bridge). No law of arithmetic beyond reading sums index by index is used, and the
  precondition is never opened.
-/
import proofs.«167458_j18124761989811_1_alg».proof.Defs
import proofs.«167458_j18124761989811_1_alg».proof.Proof.Gen.Kernel
import proofs.«167458_j18124761989811_1_alg».proof.Proof.Gen.Kernel.Frame
import proofs.«167458_j18124761989811_1_alg».proof.Proof.Gen.KernelIdeal
import proofs.«167458_j18124761989811_1_alg».proof.Proof.Gen.KernelIdeal.Frame
import proofs.«167458_j18124761989811_1_alg».proof.Proof.Gen.ReferenceIdeal
import proofs.«167458_j18124761989811_1_alg».proof.Proof.Gen.Pre_finite_inputs
import proofs.«167458_j18124761989811_1_alg».proof.Proof.Gen.ReferenceIdeal.Run
import proofs.«167458_j18124761989811_1_alg».proof.Proof.Gen.ReferenceIdeal.Read
import proofs.«167458_j18124761989811_1_alg».proof.Proof.KernelValue
import proofs.«167458_j18124761989811_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal reading rewrote no operation of the kernel program. -/
theorem preserves : Cert.preserves_Kernel_KernelIdeal := trivial

/-- Run from memories that agree on the arguments, both programs end with the result array at the same
    function of those arguments. -/
theorem algebraic : Cert.algebraic_KernelIdeal_ReferenceIdeal := by
  intro m ρ m' ρ' _ hagree
  refine ⟨fun c => Cert.KernelIdeal.Result.value m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v110_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  exact (Cert.Bridge.kernel_eq_reference _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
